-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 66
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S1x128, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named: every weakly fair execution of @main terminates, nothing
  faulting, with the result array holding what the last region's write-backs leave (the fold of the buffer contents
  through the host stretches and the three regions, at the result's buffer) and the argument arrays as launched.
-/
import proofs.«140880_j12189117186811_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's eight segments, the last thread state read against the final state: the result's buffer
    is unscoped, so it ends at the last boundary's contents; each argument is read back to its launch contents. -/
theorem run_result : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibRowScatterGather.lean ====
/-
  Row scatters and row gathers read by coordinates.

  `x.at[rows].add(u)` on a vector `x : [N]` and on a matrix `x : [N, C]` (jax's segment sum), with the row numbers
  given as a column `[E, 1]` of signed words: update `e` (or its entry `(e, f)`) lands on row `i` (entry `(i, f')`)
  exactly when the word of row `e` reads, signed, as `i` (and `f = f'`); no clamping, an update outside is dropped.
  `x[rows]` on a matrix `[N, C]`, and the cell gather `x[rows, 0]` on a column `[N, 1]`: the row read is the word of
  row `e`, signed and clamped into `[0, N - 1]`.
-/
import Idealize.ShloMosaic.PureOps.Ideal.Laws
import Idealize.ShloMosaic.Lib.ValueIdx

namespace Idealize.ShloMosaic.ValueIdx

open Idealize.ShloMosaic

variable {N E C w : ℕ}

/-! ## The scatter of a vector's rows -/

/-- The dimension numbers of `x.at[rows].add(u)` for `x : [N]`, `rows : [E, 1]`, `u : [E]`. -/
abbrev addRows1 (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem addRows1_start (wf : ScatterDims.WF ⟨1, ![N]⟩ ⟨2, ![E, 1]⟩ ⟨1, ![E]⟩ [] [0] [0] 1)
    (idx : IVec ⟨2, ![E, 1]⟩ w) (e : Fin E) :
    (addRows1 N E wf).start (ix1 e) idx 0 = (idx (ix2 e 0)).toInt := by
  unfold ScatterDims.start
  rw [dif_pos (show (0 : Fin 1) ∈ (addRows1 N E wf).scatterDimsToOperandDims from List.mem_singleton.mpr rfl)]
  have hsi : (addRows1 N E wf).siIdx (ix1 e) ⟨List.idxOf (0 : Fin 1) (addRows1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows1_window (wf : ScatterDims.WF ⟨1, ![N]⟩ ⟨2, ![E, 1]⟩ ⟨1, ![E]⟩ [] [0] [0] 1) (e : Fin E) :
    (addRows1 N E wf).window (ix1 e) 0 = 0 := by
  unfold ScatterDims.window
  rw [dif_neg (by simp [Shape.kept])]

/-- Update `e` of a vector's row scatter lands on `i` exactly when row `e`'s word reads, signed, as `i`. -/
theorem addRows1_lands (wf : ScatterDims.WF ⟨1, ![N]⟩ ⟨2, ![E, 1]⟩ ⟨1, ![E]⟩ [] [0] [0] 1)
    (idx : IVec ⟨2, ![E, 1]⟩ w) (e : Fin E) (i : Fin N) :
    (addRows1 N E wf).resultIdx? (ix1 e) idx = some (ix1 i) ↔ (idx (ix2 e 0)).toInt = (i.val : ℤ) := by
  unfold ScatterDims.resultIdx?
  split
  · rename_i h
    rw [Option.some.injEq]
    constructor
    · intro heq
      have h1 : ((addRows1 N E wf).start (ix1 e) idx 0 + ((addRows1 N E wf).window (ix1 e) 0 : ℕ)).toNat = i.val :=
        congrArg Fin.val (congrFun heq 0)
      have h0 := (h 0).1
      rw [addRows1_start, addRows1_window] at h1 h0
      omega
    · intro hval
      funext a
      obtain rfl : a = 0 := Subsingleton.elim _ _
      apply Fin.ext
      show ((addRows1 N E wf).start (ix1 e) idx 0 + ((addRows1 N E wf).window (ix1 e) 0 : ℕ)).toNat = i.val
      rw [addRows1_start, addRows1_window, hval]
      omega
  · rename_i h
    constructor
    · intro h'; exact absurd h' (by simp)
    · intro hval
      exfalso; apply h
      intro a
      obtain rfl : a = 0 := Subsingleton.elim _ _
      rw [addRows1_start, addRows1_window, hval]
      have := i.isLt
      show 0 ≤ (i.val : ℤ) + ((0 : ℕ) : ℤ) ∧ (i.val : ℤ) + ((0 : ℕ) : ℤ) < ((N : ℕ) : ℤ)
      omega

/-! ## The scatter of a matrix's rows -/

/-- The dimension numbers of `x.at[rows].add(u)` for `x : [N, C]`, `rows : [E, 1]`, `u : [E, C]`. -/
abbrev addRows2 (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem addRows2_start0 (wf : ScatterDims.WF ⟨2, ![N, C]⟩ ⟨2, ![E, 1]⟩ ⟨2, ![E, C]⟩ [1] [0] [0] 1)
    (idx : IVec ⟨2, ![E, 1]⟩ w) (e : Fin E) (f : Fin C) :
    (addRows2 N C E wf).start (ix2 e f) idx 0 = (idx (ix2 e 0)).toInt := by
  unfold ScatterDims.start
  rw [dif_pos (show (0 : Fin 2) ∈ (addRows2 N C E wf).scatterDimsToOperandDims from List.mem_singleton.mpr rfl)]
  have hsi : (addRows2 N C E wf).siIdx (ix2 e f) ⟨List.idxOf (0 : Fin 2) (addRows2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows2_start1 (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRows2 N C E wf).start j idx 1 = 0 := by
  unfold ScatterDims.start
  rw [dif_neg (by simp)]

theorem addRows2_window0 (wf : ScatterDims.WF ⟨2, ![N, C]⟩ ⟨2, ![E, 1]⟩ ⟨2, ![E, C]⟩ [1] [0] [0] 1)
    (j : (⟨2, ![E, C]⟩ : Shape).Idx) : (addRows2 N C E wf).window j 0 = 0 := by
  unfold ScatterDims.window
  rw [dif_neg (by simp [Shape.kept])]

theorem addRows2_window1 (wf : ScatterDims.WF ⟨2, ![N, C]⟩ ⟨2, ![E, 1]⟩ ⟨2, ![E, C]⟩ [1] [0] [0] 1)
    (e : Fin E) (f : Fin C) : (addRows2 N C E wf).window (ix2 e f) 1 = f.val := by
  unfold ScatterDims.window
  rw [dif_pos (by simp [Shape.kept])]
  rfl

/-- Entry `(e, f)` of a matrix's row scatter lands on `(i, f')` exactly when row `e`'s word reads, signed, as `i`, and
    `f = f'`. -/
theorem addRows2_lands (wf : ScatterDims.WF ⟨2, ![N, C]⟩ ⟨2, ![E, 1]⟩ ⟨2, ![E, C]⟩ [1] [0] [0] 1)
    (idx : IVec ⟨2, ![E, 1]⟩ w) (e : Fin E) (f : Fin C) (i : Fin N) (f' : Fin C) :
    (addRows2 N C E wf).resultIdx? (ix2 e f) idx = some (ix2 i f') ↔ (idx (ix2 e 0)).toInt = (i.val : ℤ) ∧ f = f' := by
  unfold ScatterDims.resultIdx?
  split
  · rename_i h
    rw [Option.some.injEq]
    constructor
    · intro heq
      have h1 : ((addRows2 N C E wf).start (ix2 e f) idx 0 + ((addRows2 N C E wf).window (ix2 e f) 0 : ℕ)).toNat = i.val :=
        congrArg Fin.val (congrFun heq 0)
      have h2 : ((addRows2 N C E wf).start (ix2 e f) idx 1 + ((addRows2 N C E wf).window (ix2 e f) 1 : ℕ)).toNat = f'.val :=
        congrArg Fin.val (congrFun heq 1)
      have h0 := (h 0).1
      rw [addRows2_start0, addRows2_window0] at h1 h0
      rw [addRows2_start1, addRows2_window1] at h2
      exact ⟨by omega, Fin.ext (by omega)⟩
    · rintro ⟨hval, rfl⟩
      funext a
      apply Fin.ext
      match a with
      | ⟨0, _⟩ =>
        show ((addRows2 N C E wf).start (ix2 e f) idx 0 + ((addRows2 N C E wf).window (ix2 e f) 0 : ℕ)).toNat = i.val
        rw [addRows2_start0, addRows2_window0, hval]; omega
      | ⟨1, _⟩ =>
        show ((addRows2 N C E wf).start (ix2 e f) idx 1 + ((addRows2 N C E wf).window (ix2 e f) 1 : ℕ)).toNat = f.val
        rw [addRows2_start1, addRows2_window1]; omega
  · rename_i h
    constructor
    · intro h'; exact absurd h' (by simp)
    · rintro ⟨hval, rfl⟩
      exfalso; apply h
      intro a
      match a with
      | ⟨0, _⟩ =>
        have := i.isLt
        show 0 ≤ (addRows2 N C E wf).start (ix2 e f) idx 0 + ((addRows2 N C E wf).window (ix2 e f) 0 : ℕ)
          ∧ (addRows2 N C E wf).start (ix2 e f) idx 0 + ((addRows2 N C E wf).window (ix2 e f) 0 : ℕ) < ((N : ℕ) : ℤ)
        rw [addRows2_start0, addRows2_window0, hval]; omega
      | ⟨1, _⟩ =>
        have := f.isLt
        show 0 ≤ (addRows2 N C E wf).start (ix2 e f) idx 1 + ((addRows2 N C E wf).window (ix2 e f) 1 : ℕ)
          ∧ (addRows2 N C E wf).start (ix2 e f) idx 1 + ((addRows2 N C E wf).window (ix2 e f) 1 : ℕ) < ((C : ℕ) : ℤ)
        rw [addRows2_start1, addRows2_window1]; omega

/-! ## The two scatter-adds at an index, as sums over the updates' rows -/

/-- A rank-1 index set is its one coordinate's range, so a sum over it is the sum over the coordinate. -/
theorem sum_idx1 {M : Type*} [AddCommMonoid M] {n : Nat} (g : (⟨1, ![n]⟩ : Shape).Idx → M) :
    ∑ i, g i = ∑ a : Fin n, g (ix1 a) :=
  (Equiv.sum_comp (⟨fun a => ix1 a, fun i => i 0, fun _ => rfl, fun i => (eq_ix1 i).symm⟩ : Fin n ≃ (⟨1, ![n]⟩ : Shape).Idx) g).symm

/-- `x.at[rows].add(u)` on a vector, at `i`: `x i` plus the updates whose row word reads as `i`. -/
theorem scatterRows1_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (addRows1 N E wf) x idx upd (ix1 i)
      = x (ix1 i) + ∑ e ∈ Finset.univ.filter (fun e : Fin E => (idx (ix2 e 0)).toInt = (i.val : ℤ)), upd (ix1 e) := by
  unfold Ideal.hostScatterAdd
  refine congrArg (x (ix1 i) + ·) ?_
  rw [Finset.sum_filter, Finset.sum_filter, sum_idx1]
  refine Finset.sum_congr rfl fun e _ => ?_
  by_cases hL : (idx (ix2 e 0)).toInt = (i.val : ℤ)
  · rw [if_pos hL, if_pos ((addRows1_lands wf idx e i).mpr hL)]
  · rw [if_neg hL, if_neg (fun h => hL ((addRows1_lands wf idx e i).mp h))]

/-- `x.at[rows].add(u)` on a matrix, at `(i, f)`: `x (i, f)` plus column `f` of the updates whose row word reads as `i`. -/
theorem scatterRows2_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (addRows2 N C E wf) x idx upd (ix2 i f)
      = x (ix2 i f) + ∑ e ∈ Finset.univ.filter (fun e : Fin E => (idx (ix2 e 0)).toInt = (i.val : ℤ)), upd (ix2 e f) := by
  unfold Ideal.hostScatterAdd
  refine congrArg (x (ix2 i f) + ·) ?_
  rw [Finset.sum_filter, Finset.sum_filter, sum_idx2]
  refine Finset.sum_congr rfl fun e _ => ?_
  by_cases hL : (idx (ix2 e 0)).toInt = (i.val : ℤ)
  · rw [if_pos hL, Finset.sum_eq_single f]
    · rw [if_pos ((addRows2_lands wf idx e f i f).mpr ⟨hL, rfl⟩)]
    · intro f' _ hne
      rw [if_neg (fun h => hne ((addRows2_lands wf idx e f' i f).mp h).2)]
    · intro h; exact absurd (Finset.mem_univ f) h
  · rw [if_neg hL]
    refine Finset.sum_eq_zero fun f' _ => ?_
    rw [if_neg (fun h => hL ((addRows2_lands wf idx e f' i f).mp h).1)]

/-- The same for the host's scatter-add at any dimension record equal to the vector row form. -/
theorem host_scatterRows1_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = addRows1 N E wf)
    (x : (⟨1, ![N]⟩ : Shape).Idx → EReal) (idx : IVec ⟨2, ![E, 1]⟩ w) (upd : (⟨1, ![E]⟩ : Shape).Idx → EReal) (i : Fin N) :
    Host.scatterAdd (F := Ideal) (φ := .f32) d x idx upd (ix1 i)
      = x (ix1 i) + ∑ e ∈ Finset.univ.filter (fun e : Fin E => (idx (ix2 e 0)).toInt = (i.val : ℤ)), upd (ix1 e) := by
  subst hd
  exact scatterRows1_apply wf x idx upd i

/-- The same for the host's scatter-add at any dimension record equal to the matrix row form. -/
theorem host_scatterRows2_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = addRows2 N C E wf)
    (x : (⟨2, ![N, C]⟩ : Shape).Idx → EReal) (idx : IVec ⟨2, ![E, 1]⟩ w) (upd : (⟨2, ![E, C]⟩ : Shape).Idx → EReal)
    (i : Fin N) (f : Fin C) :
    Host.scatterAdd (F := Ideal) (φ := .f32) d x idx upd (ix2 i f)
      = x (ix2 i f) + ∑ e ∈ Finset.univ.filter (fun e : Fin E => (idx (ix2 e 0)).toInt = (i.val : ℤ)), upd (ix2 e f) := by
  subst hd
  exact scatterRows2_apply wf x idx upd i f

/-! ## Gathers of rows -/

/-- A signed word clamped to a row number of an array with `N` rows. -/
def clampRow (N : ℕ) (hN : 0 < N) {w : ℕ} (v : BitVec w) : Fin N := ⟨min v.toInt.toNat (N - 1), by omega⟩

/-- The dimension numbers of `x[rows]` for `x : [N, C]`, `rows : [E, 1]`, result `[E, C]`. -/
abbrev takeRows (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[rows]` at `(e, f)` is `x` at (row `e`'s word clamped, `f`). -/
theorem takeRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (takeRows N C E wf) x idx (ix2 e f) = x (ix2 (clampRow N hN (idx (ix2 e 0))) f) := by
  unfold Host.gather
  congr 1
  funext a
  refine Fin.ext ?_
  match a with
  | ⟨0, _⟩ =>
    show (takeRows N C E wf).start (ix2 e f) idx 0 + (takeRows N C E wf).batchCoord (ix2 e f) 0 + (takeRows N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e f) ⟨List.idxOf (0 : Fin 2) (takeRows N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (takeRows N C E wf).start (ix2 e f) idx 1 + (takeRows N C E wf).batchCoord (ix2 e f) 1 + (takeRows N C E wf).offCoord (ix2 e f) 1 = f.val
    rw [GatherDims.batchCoord_eq_zero _ _ _ List.not_mem_nil]
    have hs : (takeRows N C E wf).start (ix2 e f) idx 1 = 0 := by
      unfold GatherDims.start
      rw [dif_neg (by simp)]
    have ho : (takeRows N C E wf).offCoord (ix2 e f) 1 = f.val := by
      unfold GatherDims.offCoord
      rw [dif_pos (by simp [Shape.kept])]
      rfl
    rw [hs, ho]
    omega

/-- The dimension numbers of the cell gather `x[rows, cols]` for `x : [N, 1]`, the pairs `[E, 2]`, result `[E]`. -/
abbrev takeCells (N E : ℕ) (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A cell gather from a one-column matrix at `e` is the column at pair `e`'s first word clamped, whatever its second
    word: the column axis has one coordinate. -/
theorem takeCells_apply {α : Type} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (takeCells N E wf) x idx (ix1 e) = x (ix2 (clampRow N hN (idx (ix2 e 0))) 0) := by
  unfold Host.gather
  congr 1
  funext a
  refine Fin.ext ?_
  match a with
  | ⟨0, _⟩ =>
    show (takeCells N E wf).start (ix1 e) idx 0 + (takeCells N E wf).batchCoord (ix1 e) 0 + (takeCells N E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (takeCells N E wf).startIndexMap from by simp)]
    have hsi : (takeCells N E wf).siIdx (ix1 e) ⟨List.idxOf (0 : Fin 2) (takeCells N E wf).startIndexMap,
        List.idxOf_lt_length_iff.2 (by simp)⟩ = ix2 e 0 := by
      funext b; refine Fin.ext ?_
      match b with
      | ⟨0, _⟩ => rfl
      | ⟨1, _⟩ => rfl
    rw [hsi]
    rfl
  | ⟨1, _⟩ =>
    have h1 := (takeCells N E wf).lt (ix1 e) idx 1
    show (takeCells N E wf).start (ix1 e) idx 1 + (takeCells N E wf).batchCoord (ix1 e) 1 + (takeCells N E wf).offCoord (ix1 e) 1 = 0
    have : ((⟨2, ![N, 1]⟩ : Shape).size 1) = 1 := rfl
    omega

end Idealize.ShloMosaic.ValueIdx
-- ==== Proof.GraphData.lean ====
/-
  The graph as both programs read it off the edge array: which edges arrive at a node, which rows an edge's two words
  select when a per-node array is gathered, and the per-node scale (the inverse square root of the degree, zero at
  degree zero). These are the reference's own stages for the concatenated destination words, the wrapped source and
  destination words, and the scale, read at one coordinate.
-/
import proofs.«140880_j12189117186811_2_alg».proof.Proof.RefRead
import proofs.«140880_j12189117186811_2_alg».proof.Proof.LibRowScatterGather

noncomputable section

namespace Cert.Gcn.Data

open Idealize.ShloMosaic Idealize.ShloMosaic.ValueIdx Cert.ReferenceIdeal Cert.ReferenceIdeal.Read

/-- The edge array: two rows of 1,600,000 signed words (sources, destinations). -/
abbrev EdgeWords := (⟨S2x1600000, .i32⟩ : BufTy).Contents (Elt Ideal)

/-- The edges (self loops appended) whose destination word reads, signed, as node `i`: those a segment sum adds into row `i`. -/
def hit (x1 : EdgeWords) (i : Fin 100000) : Finset (Fin 1700000) :=
  Finset.univ.filter fun e => (val_main_v6 (F := Ideal) x1 (ix1 e)).toInt = (i.val : ℤ)

/-- The row edge `e`'s source word selects in a gather: wrapped if negative, then clamped. -/
def srcRow (x1 : EdgeWords) (e : Fin 1700000) : Fin 100000 :=
  clampRow 100000 (by norm_num) (val_main_v24 (F := Ideal) x1 (ix1 e))

/-- The row edge `e`'s destination word selects in a gather: wrapped if negative, then clamped. -/
def dstRow (x1 : EdgeWords) (e : Fin 1700000) : Fin 100000 :=
  clampRow 100000 (by norm_num) (val_main_v31 (F := Ideal) x1 (ix1 e))

/-- Node `i`'s scale: the inverse square root of its degree where that is positive, zero elsewhere. -/
def scale (x1 : EdgeWords) (i : Fin 100000) : EReal := val_main_v19 (F := Ideal) x1 (ix1 i)

end Cert.Gcn.Data

end
-- ==== Proof.KernelStages.lean ====
/-
  The idealized kernel program's buffer contents at the boundaries between its host stretches and its three regions,
  read one boundary at a time. Before the first region the host builds, from the edge array alone, the same words and
  the same per-node scale as the reference does (source words, destination words, the scale column); between the
  regions it gathers the rows of the previous region's output by the wrapped source words and sums them into the rows
  the raw destination words name; each region keeps its input arrays and every buffer it does not name.
-/
import proofs.«140880_j12189117186811_2_alg».proof.Proof.Gen.KernelIdeal.Frame
import proofs.«140880_j12189117186811_2_alg».proof.Proof.GraphData
import Idealize.ShloMosaic.PureOps.Ideal
import Idealize.ShloMosaic.Lib.StableHlo.Run

noncomputable section

namespace Cert.KernelIdeal.Stages

open Cert.KernelIdeal Cert.KernelIdeal.Gen
open Idealize.ShloMosaic Idealize.ShloMosaic.TcCoe Idealize.ShloMosaic.Tactic Idealize.ShloMosaic.StableHlo
open Idealize.SL Idealize.SL.Sem
open Cert.ReferenceIdeal.Read (val_main_v3 val_main_v6 val_main_v17 val_main_v18 val_main_v19 val_main_v24 val_main_cst_3)

variable (m : (ℓ : Loc nD τ sig) → Buf (Elt Ideal) ℓ) (ρ : Dev nD → PrngReg) (c : Dev nD)

/-! ## Before the first region: the words and the scale are the reference's -/

set_option maxHeartbeats 4000000 in
/-- The concatenated source words. -/
theorem W1_v3 : W1 (F := Ideal) m ρ c (Proc.devRef .tc main_v3) = val_main_v3 (F := Ideal) (m ((c : Thread nD τ).loc main_arg1)) := by
  show StableHlo.after hostOps0 (W0 m ρ c) _ = _
  after_results_simp
  rfl

set_option maxHeartbeats 4000000 in
/-- The concatenated destination words. -/
theorem W1_v6 : W1 (F := Ideal) m ρ c (Proc.devRef .tc main_v6) = val_main_v6 (F := Ideal) (m ((c : Thread nD τ).loc main_arg1)) := by
  show StableHlo.after hostOps0 (W0 m ρ c) _ = _
  after_results_simp
  rfl

set_option maxHeartbeats 4000000 in
/-- Where the degree is positive. -/
theorem W1_v17 : W1 (F := Ideal) m ρ c (Proc.devRef .tc main_v17) = val_main_v17 (F := Ideal) (m ((c : Thread nD τ).loc main_arg1)) := by
  show StableHlo.after hostOps0 (W0 m ρ c) _ = _
  after_results_simp
  rfl

set_option maxHeartbeats 4000000 in
/-- The inverse square root of the degree. -/
theorem W1_v18 : W1 (F := Ideal) m ρ c (Proc.devRef .tc main_v18) = val_main_v18 (F := Ideal) (m ((c : Thread nD τ).loc main_arg1)) := by
  show StableHlo.after hostOps0 (W0 m ρ c) _ = _
  after_results_simp
  rfl

set_option maxHeartbeats 4000000 in
/-- The zero the scale takes at degree zero. -/
theorem W1_cst_3 : W1 (F := Ideal) m ρ c (Proc.devRef .tc main_cst_3) = val_main_cst_3 (F := Ideal) := by
  show StableHlo.after hostOps0 (W0 m ρ c) _ = _
  after_results_simp
  rfl

/-- The choice between the two, from any contents. -/
theorem where_v19 (V : Valuation τ sig (Elt Ideal)) :
    StableHlo.after hostOps0_1 V (Proc.devRef .tc main_v19)
      = select (V (Proc.devRef .tc main_v17)) (V (Proc.devRef .tc main_v18))
          (broadcastInDim S100000 ![] bcast_S_S100000 (id (V (Proc.devRef .tc main_cst_3)))) := by
  after_results
  rfl
theorem where_v3 (V : Valuation τ sig (Elt Ideal)) :
    StableHlo.after hostOps0_1 V (Proc.devRef .tc main_v3) = V (Proc.devRef .tc main_v3) := by
  after_results
theorem where_v6 (V : Valuation τ sig (Elt Ideal)) :
    StableHlo.after hostOps0_1 V (Proc.devRef .tc main_v6) = V (Proc.devRef .tc main_v6) := by
  after_results

/-- The scale as a vector is the reference's. -/
theorem W2_v19 : W2 (F := Ideal) m ρ c (Proc.devRef .tc main_v19) = val_main_v19 (F := Ideal) (m ((c : Thread nD τ).loc main_arg1)) := by
  show StableHlo.after hostOps0_1 (W1 m ρ c) _ = _
  rw [where_v19, W1_v17, W1_v18, W1_cst_3]
  rfl

/-- The reshape to a column, from any contents. -/
theorem column_v20 (V : Valuation τ sig (Elt Ideal)) :
    StableHlo.after hostOps0_2 V (Proc.devRef .tc main_v20)
      = shapeCast S100000x1 (V (Proc.devRef .tc main_v19)) shapeCasts_S100000_S100000x1 := by
  after_results
  rfl
theorem column_v3 (V : Valuation τ sig (Elt Ideal)) :
    StableHlo.after hostOps0_2 V (Proc.devRef .tc main_v3) = V (Proc.devRef .tc main_v3) := by
  after_results
theorem column_v6 (V : Valuation τ sig (Elt Ideal)) :
    StableHlo.after hostOps0_2 V (Proc.devRef .tc main_v6) = V (Proc.devRef .tc main_v6) := by
  after_results

/-- The scale column the regions read. -/
theorem W3_v20 : W3 (F := Ideal) m ρ c (Proc.devRef .tc main_v20)
    = shapeCast S100000x1 (val_main_v19 (F := Ideal) (m ((c : Thread nD τ).loc main_arg1))) shapeCasts_S100000_S100000x1 := by
  show StableHlo.after hostOps0_2 (W2 m ρ c) _ = _
  rw [column_v20, W2_v19]

theorem W3_v3 : W3 (F := Ideal) m ρ c (Proc.devRef .tc main_v3) = val_main_v3 (F := Ideal) (m ((c : Thread nD τ).loc main_arg1)) := by
  show StableHlo.after hostOps0_2 (StableHlo.after hostOps0_1 (W1 m ρ c)) _ = _
  rw [column_v3, where_v3, W1_v3]

theorem W3_v6 : W3 (F := Ideal) m ρ c (Proc.devRef .tc main_v6) = val_main_v6 (F := Ideal) (m ((c : Thread nD τ).loc main_arg1)) := by
  show StableHlo.after hostOps0_2 (StableHlo.after hostOps0_1 (W1 m ρ c)) _ = _
  rw [column_v6, where_v6, W1_v6]

/-! ## The arguments reach the first region as launched -/

set_option maxHeartbeats 4000000 in
theorem W3_arg0 : W3 (F := Ideal) m ρ c (Proc.devRef .tc main_arg0) = m ((c : Thread nD τ).loc main_arg0) := by
  show StableHlo.after hostOps0_2 (StableHlo.after hostOps0_1 (StableHlo.after hostOps0 (W0 m ρ c))) _ = _
  after_results_simp <;> rfl

set_option maxHeartbeats 4000000 in
theorem W3_arg2 : W3 (F := Ideal) m ρ c (Proc.devRef .tc main_arg2) = m ((c : Thread nD τ).loc main_arg2) := by
  show StableHlo.after hostOps0_2 (StableHlo.after hostOps0_1 (StableHlo.after hostOps0 (W0 m ρ c))) _ = _
  after_results_simp <;> rfl

set_option maxHeartbeats 4000000 in
theorem W3_arg3 : W3 (F := Ideal) m ρ c (Proc.devRef .tc main_arg3) = m ((c : Thread nD τ).loc main_arg3) := by
  show StableHlo.after hostOps0_2 (StableHlo.after hostOps0_1 (StableHlo.after hostOps0 (W0 m ρ c))) _ = _
  after_results_simp <;> rfl

set_option maxHeartbeats 4000000 in
theorem W3_arg4 : W3 (F := Ideal) m ρ c (Proc.devRef .tc main_arg4) = m ((c : Thread nD τ).loc main_arg4) := by
  show StableHlo.after hostOps0_2 (StableHlo.after hostOps0_1 (StableHlo.after hostOps0 (W0 m ρ c))) _ = _
  after_results_simp <;> rfl

set_option maxHeartbeats 4000000 in
theorem W3_arg5 : W3 (F := Ideal) m ρ c (Proc.devRef .tc main_arg5) = m ((c : Thread nD τ).loc main_arg5) := by
  show StableHlo.after hostOps0_2 (StableHlo.after hostOps0_1 (StableHlo.after hostOps0 (W0 m ρ c))) _ = _
  after_results_simp <;> rfl

/-! ## Across the first region -/

/-- The first region's output array is what its write-backs leave. -/
theorem W4_v21 : W4 (F := Ideal) m ρ c (Proc.devRef .tc main_v21) = (dat0 (V3 m ρ) c).arrAt 3 cfg0.N := W4_arr m ρ c 3

/-- The scale column is an input of the first region: kept. -/
theorem W4_v20 : W4 (F := Ideal) m ρ c (Proc.devRef .tc main_v20) = W3 m ρ c (Proc.devRef .tc main_v20) :=
  (W4_arr m ρ c 2).trans (((dat0 (V3 m ρ) c).arrAt_in 2 rfl _).trans (A_eq0 (V3 m ρ) c 2))

theorem W4_v3 : W4 (F := Ideal) m ρ c (Proc.devRef .tc main_v3) = W3 m ρ c (Proc.devRef .tc main_v3) := W4_of_ne m ρ c main_v3 (by decide)
theorem W4_v6 : W4 (F := Ideal) m ρ c (Proc.devRef .tc main_v6) = W3 m ρ c (Proc.devRef .tc main_v6) := W4_of_ne m ρ c main_v6 (by decide)
theorem W4_arg3 : W4 (F := Ideal) m ρ c (Proc.devRef .tc main_arg3) = W3 m ρ c (Proc.devRef .tc main_arg3) := W4_of_ne m ρ c main_arg3 (by decide)
theorem W4_arg4 : W4 (F := Ideal) m ρ c (Proc.devRef .tc main_arg4) = W3 m ρ c (Proc.devRef .tc main_arg4) := W4_of_ne m ρ c main_arg4 (by decide)
theorem W4_arg5 : W4 (F := Ideal) m ρ c (Proc.devRef .tc main_arg5) = W3 m ρ c (Proc.devRef .tc main_arg5) := W4_of_ne m ρ c main_arg5 (by decide)

/-! ## The first gather and segment sum, from any contents -/

/-- The rows of the first region's output gathered by the wrapped source words and summed into the rows the raw
    destination words name. -/
theorem sum1_v31 (V : Valuation τ sig (Elt Ideal)) :
    StableHlo.after hostOps1 V (Proc.devRef .tc main_v31)
      = Host.scatterAdd (F := Ideal) (φ := .f32) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (V (Proc.devRef .tc main_v6)))
          (Host.gather gather_S100000x128_S1700000x1_S1700000x128_1_0_n_n_0_1_1128 (V (Proc.devRef .tc main_v21) : S100000x128.Idx → EReal)
            (broadcastInDim S1700000x1 ![0] bcast_S1700000_S1700000x1_0
              (select (cmpi .slt (V (Proc.devRef .tc main_v3)) (broadcastInDim S1700000 ![] bcast_S_S1700000 (constantI S_ 32 0#32)))
                (addi (V (Proc.devRef .tc main_v3)) (broadcastInDim S1700000 ![] bcast_S_S1700000 (constantI S_ 32 100000#32)))
                (V (Proc.devRef .tc main_v3))))) := by
  after_results
/-- The first bias as a row. -/
theorem sum1_v32 (V : Valuation τ sig (Elt Ideal)) :
    StableHlo.after hostOps1 V (Proc.devRef .tc main_v32) = shapeCast S1x128 (V (Proc.devRef .tc main_arg3)) shapeCasts_S128_S1x128 := by
  after_results
  rfl
theorem sum1_v20 (V : Valuation τ sig (Elt Ideal)) : StableHlo.after hostOps1 V (Proc.devRef .tc main_v20) = V (Proc.devRef .tc main_v20) := by after_results
theorem sum1_v3 (V : Valuation τ sig (Elt Ideal)) : StableHlo.after hostOps1 V (Proc.devRef .tc main_v3) = V (Proc.devRef .tc main_v3) := by after_results
theorem sum1_v6 (V : Valuation τ sig (Elt Ideal)) : StableHlo.after hostOps1 V (Proc.devRef .tc main_v6) = V (Proc.devRef .tc main_v6) := by after_results
theorem sum1_arg4 (V : Valuation τ sig (Elt Ideal)) : StableHlo.after hostOps1 V (Proc.devRef .tc main_arg4) = V (Proc.devRef .tc main_arg4) := by after_results
theorem sum1_arg5 (V : Valuation τ sig (Elt Ideal)) : StableHlo.after hostOps1 V (Proc.devRef .tc main_arg5) = V (Proc.devRef .tc main_arg5) := by after_results

/-! ## Across the second region -/

theorem W6_v33 : W6 (F := Ideal) m ρ c (Proc.devRef .tc main_v33) = (dat1 (V5 m ρ) c).arrAt 4 cfg1.N := W6_arr m ρ c 4
theorem W6_v20 : W6 (F := Ideal) m ρ c (Proc.devRef .tc main_v20) = W5 m ρ c (Proc.devRef .tc main_v20) :=
  (W6_arr m ρ c 1).trans (((dat1 (V5 m ρ) c).arrAt_in 1 rfl _).trans (A_eq1 (V5 m ρ) c 1))
theorem W6_v3 : W6 (F := Ideal) m ρ c (Proc.devRef .tc main_v3) = W5 m ρ c (Proc.devRef .tc main_v3) := W6_of_ne m ρ c main_v3 (by decide)
theorem W6_v6 : W6 (F := Ideal) m ρ c (Proc.devRef .tc main_v6) = W5 m ρ c (Proc.devRef .tc main_v6) := W6_of_ne m ρ c main_v6 (by decide)
theorem W6_arg5 : W6 (F := Ideal) m ρ c (Proc.devRef .tc main_arg5) = W5 m ρ c (Proc.devRef .tc main_arg5) := W6_of_ne m ρ c main_arg5 (by decide)

/-! ## The second gather and segment sum, from any contents -/

theorem sum2_v43 (V : Valuation τ sig (Elt Ideal)) :
    StableHlo.after hostOps2 V (Proc.devRef .tc main_v43)
      = Host.scatterAdd (F := Ideal) (φ := .f32) scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (V (Proc.devRef .tc main_v6)))
          (Host.gather gather_S100000x64_S1700000x1_S1700000x64_1_0_n_n_0_1_164 (V (Proc.devRef .tc main_v33) : S100000x64.Idx → EReal)
            (broadcastInDim S1700000x1 ![0] bcast_S1700000_S1700000x1_0
              (select (cmpi .slt (V (Proc.devRef .tc main_v3)) (broadcastInDim S1700000 ![] bcast_S_S1700000 (constantI S_ 32 0#32)))
                (addi (V (Proc.devRef .tc main_v3)) (broadcastInDim S1700000 ![] bcast_S_S1700000 (constantI S_ 32 100000#32)))
                (V (Proc.devRef .tc main_v3))))) := by
  after_results
/-- The second bias as a row. -/
theorem sum2_v44 (V : Valuation τ sig (Elt Ideal)) :
    StableHlo.after hostOps2 V (Proc.devRef .tc main_v44) = shapeCast S1x64 (V (Proc.devRef .tc main_arg5)) shapeCasts_S64_S1x64 := by
  after_results
  rfl
theorem sum2_v20 (V : Valuation τ sig (Elt Ideal)) : StableHlo.after hostOps2 V (Proc.devRef .tc main_v20) = V (Proc.devRef .tc main_v20) := by after_results

/-! ## The result -/

theorem W8_v45 : W8 (F := Ideal) m ρ c (Proc.devRef .tc main_v45) = (dat2 (V7 m ρ) c).arrAt 3 cfg2.N := W8_arr m ρ c 3

end Cert.KernelIdeal.Stages

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.KernelSums.lean ====
/-
  The two host stages between the regions, read at an entry: the rows of an array gathered by the wrapped, clamped
  source words and summed into the rows the raw destination words name. At node `i` and column `k` that is zero plus
  the sum, over the edges arriving at `i`, of the array's entry in the row the edge's source selects.
-/
import proofs.«140880_j12189117186811_2_alg».proof.Proof.KernelStages
import proofs.«140880_j12189117186811_2_alg».proof.Proof.LibRowScatterGather
import proofs.«140880_j12189117186811_2_alg».proof.Proof.LibColumnForms
import Idealize.ShloMosaic.Lib.ValueLayout
import Idealize.ShloMosaic.PureOps.Ideal.Laws

noncomputable section

namespace Cert.KernelIdeal.Sums

open Cert.KernelIdeal Cert.KernelIdeal.Gen
open Idealize.ShloMosaic Idealize.ShloMosaic.ValueIdx Idealize.ShloMosaic.TcCoe
open Cert.ReferenceIdeal.Read (val_main_v3 val_main_v6 val_main_v19 val_main_v24)
open Cert.Gcn

variable (x1 : Data.EdgeWords)

/-- A vector of edge words spread to a one-column matrix reads, in row `e`, the vector's entry `e`. -/
theorem column_at {α : Type} (v : S1700000.Idx → α) (e : Fin 1700000) :
    broadcastInDim S1700000x1 ![0] bcast_S1700000_S1700000x1_0 v (ix2 e (0 : Fin 1)) = v (ix1 e) :=
  broadcastInDim_apply _ bcast_S1700000_S1700000x1_0 v (ix2 e (0 : Fin 1)) (ix1 e) (fun a => match a with
    | ⟨0, _⟩ => by show e.val = if (1700000 : Nat) = 1 then 0 else e.val; rw [if_neg (by decide)])

/-- The source words wrapped when negative: the reference's own wrapped source words. -/
theorem wrapped_src :
    select (cmpi .slt (val_main_v3 (F := Ideal) x1) (broadcastInDim S1700000 ![] bcast_S_S1700000 (constantI S_ 32 0#32)))
        (addi (val_main_v3 (F := Ideal) x1) (broadcastInDim S1700000 ![] bcast_S_S1700000 (constantI S_ 32 100000#32)))
        (val_main_v3 (F := Ideal) x1)
      = val_main_v24 (F := Ideal) x1 := rfl

/-- The gather-and-segment-sum stage on an array of 128 columns. -/
def seg128 (H : S100000x128.Idx → EReal) : S100000x128.Idx → EReal :=
  Host.scatterAdd (F := Ideal) (φ := .f32) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (val_main_v6 (F := Ideal) x1))
    (Host.gather gather_S100000x128_S1700000x1_S1700000x128_1_0_n_n_0_1_1128 H
      (broadcastInDim S1700000x1 ![0] bcast_S1700000_S1700000x1_0 (val_main_v24 (F := Ideal) x1)))

/-- The same stage on an array of 64 columns. -/
def seg64 (H : S100000x64.Idx → EReal) : S100000x64.Idx → EReal :=
  Host.scatterAdd (F := Ideal) (φ := .f32) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 (val_main_v6 (F := Ideal) x1))
    (Host.gather gather_S100000x64_S1700000x1_S1700000x64_1_0_n_n_0_1_164 H
      (broadcastInDim S1700000x1 ![0] bcast_S1700000_S1700000x1_0 (val_main_v24 (F := Ideal) x1)))

/-- The edges a segment sum adds into row `i` are those arriving at node `i`. -/
theorem arrivals (i : Fin 100000) :
    (Finset.univ.filter fun e : Fin 1700000 =>
      (broadcastInDim S1700000x1 ![0] bcast_S1700000_S1700000x1_0 (val_main_v6 (F := Ideal) x1) (ix2 e 0)).toInt = (i.val : ℤ))
      = Data.hit x1 i := by
  unfold Data.hit
  refine Finset.filter_congr fun e _ => ?_
  rw [column_at]

theorem seg128_apply (H : S100000x128.Idx → EReal) (i : Fin 100000) (k : Fin 128) :
    seg128 x1 H (ix2 i k) = 0 + ∑ e ∈ Data.hit x1 i, H (ix2 (Data.srcRow x1 e) k) := by
  unfold seg128
  refine (host_scatterRows2_apply (N := 100000) (C := 128) (E := 1700000)
    scatter_S100000x128_S1700000x1_S1700000x128_1_0_0_1
    scatter_S100000x128_S1700000x1_S1700000x128_1_0_0_1.wf rfl _ _ _ i k).trans ?_
  rw [arrivals]
  refine congrArg₂ (· + ·) Ideal.ofBits_zero_f32 (Finset.sum_congr rfl fun e _ => ?_)
  refine (takeRows_apply (N := 100000) (C := 128) (E := 1700000) (by norm_num)
    gather_S100000x128_S1700000x1_S1700000x128_1_0_n_n_0_1_1128.wf H _ e k).trans ?_
  rw [column_at]
  rfl

theorem seg64_apply (H : S100000x64.Idx → EReal) (i : Fin 100000) (g : Fin 64) :
    seg64 x1 H (ix2 i g) = 0 + ∑ e ∈ Data.hit x1 i, H (ix2 (Data.srcRow x1 e) g) := by
  unfold seg64
  refine (host_scatterRows2_apply (N := 100000) (C := 64) (E := 1700000)
    scatter_S100000x64_S1700000x1_S1700000x64_1_0_0_1
    scatter_S100000x64_S1700000x1_S1700000x64_1_0_0_1.wf rfl _ _ _ i g).trans ?_
  rw [arrivals]
  refine congrArg₂ (· + ·) Ideal.ofBits_zero_f32 (Finset.sum_congr rfl fun e _ => ?_)
  refine (takeRows_apply (N := 100000) (C := 64) (E := 1700000) (by norm_num)
    gather_S100000x64_S1700000x1_S1700000x64_1_0_n_n_0_1_164.wf H _ e g).trans ?_
  rw [column_at]
  rfl

/-- The scale column the regions read. -/
def scaleCol : S100000x1.Idx → EReal :=
  shapeCast S100000x1 (val_main_v19 (F := Ideal) x1) shapeCasts_S100000_S100000x1

theorem scaleCol_at (i : Fin 100000) : scaleCol x1 (ix2 i (0 : Fin 1)) = Data.scale x1 i :=
  ValueLayout.shapeCast_a_a1_apply _ _ i 0

/-- A bias vector as the one-row matrix a region reads. -/
theorem row128_at (b : S128.Idx → EReal) (k : Fin 128) :
    shapeCast S1x128 b shapeCasts_S128_S1x128 (ix2 (0 : Fin 1) k) = b (ix1 k) :=
  ValueIdx.shapeCast_a_1a_apply _ _ _ k

theorem row64_at (b : S64.Idx → EReal) (g : Fin 64) :
    shapeCast S1x64 b shapeCasts_S64_S1x64 (ix2 (0 : Fin 1) g) = b (ix1 g) :=
  ValueIdx.shapeCast_a_1a_apply _ _ _ g

end Cert.KernelIdeal.Sums

end
-- ==== Proof.RegionValue0.lean ====
/-
  The value of the kernel's first region (the feature transform with row scaling) as one function of the arrays it
  finds. The region runs over 20 points; point `t` takes rows `5000 t … 5000 t + 4999` of the features `[100000, 128]`
  and of the scale column `[100000, 1]`, and the whole weight matrix `[128, 128]`, and writes rows
  `5000 t … 5000 t + 4999` of the output: the matrix product of the feature rows with the weights (a plain sum over the
  shared axis: the roundings of the operands are the identity at the ideal values and the accumulator starts at zero),
  each row times its scale. The blocks of the 20 points tile the output, so the output array ends as that function of
  the three arrays, entry by entry.
-/
import proofs.«140880_j12189117186811_2_alg».proof.Proof.Gen.KernelIdeal.Frame
import proofs.«140880_j12189117186811_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.ValueLayout
open Idealize.ShloMosaic.TcCoe
open Idealize.ShloMosaic.Pipeline (Dat)

private theorem zero_offsets : (![0, 0] : Fin 2 → Nat) = fun _ => 0 := funext fun a => by fin_cases a <;> rfl

/-- A `[5000, 128] × [128, 128]` matrix product into a zero accumulator, at an entry: the sum over the shared axis. -/
theorem matmul0_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ l : Fin 128, x (ix2 p l) * w (ix2 l q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun l _ => ?_
  have hl : dot_S5000x128_S128x128_S5000x128_1_0_0_1_n_n.lhsIdx (ix2 p q)
      ((contrEquiv1 dot_S5000x128_S128x128_S5000x128_1_0_0_1_n_n 128 rfl rfl).symm l) = ix2 p l := by
    funext a
    apply Fin.ext
    match a with
    | ⟨0, _⟩ => first | rfl | (simp [DotDims.lhsIdx, dot_S5000x128_S128x128_S5000x128_1_0_0_1_n_n]; rfl)
    | ⟨1, _⟩ =>
      refine (DotDims.lhsIdx_val_of_single dot_S5000x128_S128x128_S5000x128_1_0_0_1_n_n (cl := (1 : Fin 2)) rfl _ _).trans ?_
      exact contrEquiv1_symm_val _ 128 rfl rfl l
  have hr : dot_S5000x128_S128x128_S5000x128_1_0_0_1_n_n.rhsIdx (ix2 p q)
      ((contrEquiv1 dot_S5000x128_S128x128_S5000x128_1_0_0_1_n_n 128 rfl rfl).symm l) = ix2 l q := by
    funext a
    apply Fin.ext
    match a with
    | ⟨0, _⟩ =>
      refine (DotDims.rhsIdx_val_of_single dot_S5000x128_S128x128_S5000x128_1_0_0_1_n_n (cr := (0 : Fin 2)) rfl _ _).trans ?_
      exact contrEquiv1_symm_val _ 128 rfl rfl l
    | ⟨1, _⟩ => first | rfl | (simp [DotDims.rhsIdx, dot_S5000x128_S128x128_S5000x128_1_0_0_1_n_n]; rfl)
  rw [hl, hr]

/-- Region 0's payload at an entry of the block: the row of the features against the column of the weights, times the
    row's scale. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ l : Fin 128, x0 (ix2 p l) * x1 (ix2 l q)) * x2 (ix2 p (0 : Fin 1)) := by
  unfold k0_pay1
  simp only [shapeCast_self]
  rw [mulf_apply, broadcastTo_a1_ab_apply]
  refine congrArg (· * x2 (ix2 p (0 : Fin 1))) ?_
  exact matmul0_apply _ _ p q

variable (V : (c : Dev nD) → (b : Ref sig .tc) → Buf (Elt Ideal) ((c : Thread nD τ).loc b))

/-- The printed index maps of region 0, decided over the grid: the row-blocked windows sit at block `(t, 0)`, the weights
    at `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` holds rows `5000 t … 5000 t + 4999` of the array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  obtain ⟨e0, e1, -⟩ := idx_facts0 t
  unfold iblk0
  rw [View.read_apply]
  show (V c main_arg0 : S100000x128.Idx → EReal) _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weights' block at every point is the whole matrix. -/
theorem iblk0_1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → EReal) k := by
  obtain ⟨-, -, e0, e1, -⟩ := idx_facts0 t
  unfold iblk0
  rw [View.read_apply]
  show (V c main_arg2 : S128x128.Idx → EReal) _ = V c main_arg2 _
  congr 1
  funext a
  apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-- The scale column's block at point `t` holds rows `5000 t … 5000 t + 4999` of the column. -/
theorem iblk0_2_apply (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (V c main_v20 : S100000x1.Idx → EReal) k := by
  obtain ⟨-, -, -, -, e0, e1, -⟩ := idx_facts0 t
  unfold iblk0
  rw [View.read_apply]
  show (V c main_v20 : S100000x1.Idx → EReal) _ = V c main_v20 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- What region 0 leaves in its output array: every row of the features against every column of the weights, each row
    times its scale. -/
def G0 (a : S100000x128.Idx → EReal) (w : S128x128.Idx → EReal) (d : S100000x1.Idx → EReal) : S100000x128.Idx → EReal :=
  fun j => (∑ l : Fin 128, a (ix2 (⟨(j 0).val, idx2_lt0 j⟩ : Fin 100000) l) * w (ix2 l (⟨(j 1).val, idx2_lt1 j⟩ : Fin 128)))
    * d (ix2 (⟨(j 0).val, idx2_lt0 j⟩ : Fin 100000) (0 : Fin 1))

/-- What point `t` of region 0 writes back is block `t` of `G0` of the arrays the region finds. -/
theorem flushed0_eq (c : Dev nD) (t : Fin cfg0.N) :
    (dat0 (F := Ideal) V c).flushed 3 t
      = ((cfg0.win 3).blk t).view.read (Elt Ideal) (G0 (V c main_arg0) (V c main_arg2) (V c main_v20)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets, View.ld_unit_zero (S := S5000x1) zero_offsets]
  obtain ⟨-, -, -, -, -, -, e30, e31⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = G0 (V c main_arg0) (V c main_arg2) (V c main_v20) (((cfg0.win 3).blk t).view.emb (ix2 p q))
  refine (pay0_apply _ _ _ p q).trans ?_
  have h0 : ((((cfg0.win 3).blk t).view.emb (ix2 p q)) 0).val = 5000 * t.val + p.val := by
    show win0_3.index t 0 * 5000 + 1 * p.val = _; rw [e30]; omega
  have h1 : ((((cfg0.win 3).blk t).view.emb (ix2 p q)) 1).val = q.val := by
    show win0_3.index t 1 * 128 + 1 * q.val = _; rw [e31]; omega
  unfold G0
  refine congrArg₂ (· * ·) (Finset.sum_congr rfl fun l _ => congrArg₂ (· * ·) ?_ ?_) ?_
  · exact iblk0_0_apply V c t (ix2 p l) _ h0 rfl
  · exact iblk0_1_apply V c t (ix2 l q) _ rfl h1
  · exact iblk0_2_apply V c t (ix2 p (0 : Fin 1)) _ h0 rfl

/-- An index of the output array lies in point `t`'s block iff each coordinate lies in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Row `r` of the output lies in the block of point `r / 5000`, which writes back. -/
theorem cover0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  have ht : (i 0).val / 5000 < cfg0.N := lt_of_lt_of_eq (by omega) hN.symm
  obtain ⟨-, -, -, -, -, -, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e31]; omega

/-- Region 0's output array after its last point is `G0` of the arrays the region finds. -/
theorem region0_array (c : Dev nD) :
    (dat0 (F := Ideal) V c).arrAt 3 cfg0.N = G0 (V c main_arg0) (V c main_arg2) (V c main_v20) :=
  (dat0 (F := Ideal) V c).arrAt_eq_of_cover 3 _ (fun t _ => flushed0_eq V c t) cover0

/-- `G0` at an entry `(i, k)`. -/
theorem G0_apply (a : S100000x128.Idx → EReal) (w : S128x128.Idx → EReal) (d : S100000x1.Idx → EReal) (i : Fin 100000) (k : Fin 128) :
    G0 a w d (ix2 i k) = (∑ l : Fin 128, a (ix2 i l) * w (ix2 l k)) * d (ix2 i (0 : Fin 1)) := rfl

/-- REGION 0 at an entry: the features' row against the weights' column, times the row's scale (products and a sum of
    extended reals: the entries' types are the extended reals once the buffers' types are unfolded, so the operations
    are written with their type named). -/
theorem region0_value (c : Dev nD) (i : Fin 100000) (k : Fin 128) :
    (dat0 (F := Ideal) V c).arrAt 3 cfg0.N (ix2 i k)
      = HMul.hMul (α := EReal) (β := EReal)
          (∑ l : Fin 128, HMul.hMul (α := EReal) (β := EReal) (V c main_arg0 (ix2 i l)) (V c main_arg2 (ix2 l k)))
          (V c main_v20 (ix2 i (0 : Fin 1))) := by
  rw [region0_array]
  rfl

end Cert.KernelIdeal.RegionValue

end
-- ==== Proof.RegionValue1.lean ====
/-
  The value of the kernel's second region (scale, bias, rectifier, second transform, row scaling) as one function of
  the arrays it finds. The region runs over 20 points; point `t` takes rows `5000 t … 5000 t + 4999` of the aggregate
  `[100000, 128]` and of the scale column `[100000, 1]` (the body loads the column's block twice: both loads read the
  same block), the whole bias row `[1, 128]` and the whole weight matrix `[128, 64]`, and writes rows
  `5000 t … 5000 t + 4999` of the output: each entry of the aggregate times its row's scale plus its column's bias,
  the maximum of that and zero, the matrix product of those rows with the weights (a plain sum over the shared axis:
  the roundings of the operands are the identity at the ideal values and the accumulator starts at zero), each row
  times its scale again. The blocks of the 20 points tile the output, so the output array ends as that function of
  the four arrays, entry by entry.
-/
import proofs.«140880_j12189117186811_2_alg».proof.Proof.Gen.KernelIdeal.Frame
import proofs.«140880_j12189117186811_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.ValueLayout
open Idealize.ShloMosaic.TcCoe
open Idealize.ShloMosaic.Pipeline (Dat)

private theorem zero_offsets : (![0, 0] : Fin 2 → Nat) = fun _ => 0 := funext fun a => by fin_cases a <;> rfl

/-- A `[5000, 128] × [128, 64]` matrix product into a zero accumulator, at an entry: the sum over the shared axis. -/
theorem matmul1_apply (x : FVec Ideal S5000x128 .bf16) (w : FVec Ideal S128x64 .bf16) (p : Fin 5000) (g : Fin 64) :
    matmul dot_S5000x128_S128x64_S5000x64_1_0_0_1_n_n none x w (constant (F := Ideal) S5000x64 .f32 0x00000000#32) (ix2 p g)
      = ∑ k : Fin 128, x (ix2 p k) * w (ix2 k g) := by
  refine (Ideal.matmul_constant_zero_apply dot_S5000x128_S128x64_S5000x64_1_0_0_1_n_n none x w (ix2 p g)).trans ?_
  rw [← Equiv.sum_comp (contrEquiv1 dot_S5000x128_S128x64_S5000x64_1_0_0_1_n_n 128 rfl rfl).symm]
  refine Finset.sum_congr rfl fun k _ => ?_
  have hl : dot_S5000x128_S128x64_S5000x64_1_0_0_1_n_n.lhsIdx (ix2 p g)
      ((contrEquiv1 dot_S5000x128_S128x64_S5000x64_1_0_0_1_n_n 128 rfl rfl).symm k) = ix2 p k := by
    funext a
    apply Fin.ext
    match a with
    | ⟨0, _⟩ => rfl
    | ⟨1, _⟩ =>
      refine (DotDims.lhsIdx_val_of_single dot_S5000x128_S128x64_S5000x64_1_0_0_1_n_n (cl := (1 : Fin 2)) rfl _ _).trans ?_
      exact contrEquiv1_symm_val _ 128 rfl rfl k
  have hr : dot_S5000x128_S128x64_S5000x64_1_0_0_1_n_n.rhsIdx (ix2 p g)
      ((contrEquiv1 dot_S5000x128_S128x64_S5000x64_1_0_0_1_n_n 128 rfl rfl).symm k) = ix2 k g := by
    funext a
    apply Fin.ext
    match a with
    | ⟨0, _⟩ =>
      refine (DotDims.rhsIdx_val_of_single dot_S5000x128_S128x64_S5000x64_1_0_0_1_n_n (cr := (0 : Fin 2)) rfl _ _).trans ?_
      exact contrEquiv1_symm_val _ 128 rfl rfl k
    | ⟨1, _⟩ => rfl
  rw [hl, hr]

/-- Region 1's payload at an entry of the block: the rectified, scaled and biased row of the aggregate against the
    column of the weights, times the row's scale (the payload's two scale columns kept apart). -/
theorem pay1_apply (x0 : Vec Ideal S5000x128 .f32) (x1 : Vec Ideal S5000x1 .f32) (x2 : Vec Ideal S1x128 .f32)
    (x3 : Vec Ideal S128x64 .f32) (x4 : Vec Ideal S5000x1 .f32) (p : Fin 5000) (g : Fin 64) :
    k1_pay1 x0 x1 x2 x3 x4 (ix2 p g)
      = (∑ k : Fin 128, max (x0 (ix2 p k) * x1 (ix2 p (0 : Fin 1)) + x2 (ix2 (0 : Fin 1) k)) 0 * x3 (ix2 k g))
        * x4 (ix2 p (0 : Fin 1)) := by
  unfold k1_pay1
  simp only [shapeCast_self]
  rw [mulf_apply, broadcastTo_a1_ab_apply]
  refine congrArg (· * x4 (ix2 p (0 : Fin 1))) ?_
  refine (matmul1_apply _ _ p g).trans ?_
  refine Finset.sum_congr rfl fun k _ => ?_
  rw [truncf_apply, truncf_apply, maximumf_apply, addf_apply, mulf_apply, broadcastTo_a1_ab_apply,
    broadcastTo_1b_ab_apply, broadcast_apply]
  show max _ (Ideal.ofBits .f32 0x00000000#32) * _ = _
  rw [Ideal.ofBits_zero_f32]

variable (V : (c : Dev nD) → (b : Ref sig .tc) → Buf (Elt Ideal) ((c : Thread nD τ).loc b))

/-- The printed index maps of region 1, decided over the grid: the row-blocked windows sit at block `(t, 0)`, the bias
    and the weights at `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` holds rows `5000 t … 5000 t + 4999` of the array. -/
theorem iblk1_0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v31 : S100000x128.Idx → EReal) k := by
  obtain ⟨e0, e1, -⟩ := idx_facts1 t
  unfold iblk1
  rw [View.read_apply]
  show (V c main_v31 : S100000x128.Idx → EReal) _ = V c main_v31 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The scale column's block at point `t` holds rows `5000 t … 5000 t + 4999` of the column. -/
theorem iblk1_1_apply (c : Dev nD) (t : Fin cfg1.N) (x : S5000x1.Idx) (k : S100000x1.Idx)
    (hk0 : (k 0).val = 5000 * t.val + (x 0).val) (hk1 : (k 1).val = (x 1).val) :
    (iblk1 V c 1 t : Vec Ideal S5000x1 .f32) x = (V c main_v20 : S100000x1.Idx → EReal) k := by
  obtain ⟨-, -, e0, e1, -⟩ := idx_facts1 t
  unfold iblk1
  rw [View.read_apply]
  show (V c main_v20 : S100000x1.Idx → EReal) _ = V c main_v20 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias row's block at every point is the whole row. -/
theorem iblk1_2_apply (c : Dev nD) (t : Fin cfg1.N) (x : S1x128.Idx) (k : S1x128.Idx)
    (hk0 : (k 0).val = (x 0).val) (hk1 : (k 1).val = (x 1).val) :
    (iblk1 V c 2 t : Vec Ideal S1x128 .f32) x = (V c main_v32 : S1x128.Idx → EReal) k := by
  obtain ⟨-, -, -, -, e0, e1, -⟩ := idx_facts1 t
  unfold iblk1
  rw [View.read_apply]
  show (V c main_v32 : S1x128.Idx → EReal) _ = V c main_v32 _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega

/-- The weights' block at every point is the whole matrix. -/
theorem iblk1_3_apply (c : Dev nD) (t : Fin cfg1.N) (x : S128x64.Idx) (k : S128x64.Idx)
    (hk0 : (k 0).val = (x 0).val) (hk1 : (k 1).val = (x 1).val) :
    (iblk1 V c 3 t : Vec Ideal S128x64 .f32) x = (V c main_arg4 : S128x64.Idx → EReal) k := by
  obtain ⟨-, -, -, -, -, -, e0, e1, -⟩ := idx_facts1 t
  unfold iblk1
  rw [View.read_apply]
  show (V c main_arg4 : S128x64.Idx → EReal) _ = V c main_arg4 _
  congr 1
  funext a
  apply Fin.ext
  match a with
  | ⟨0, _⟩ => show win1_3.index t 0 * 128 + 1 * (x 0).val = (k 0).val; rw [e0, hk0]; omega
  | ⟨1, _⟩ => show win1_3.index t 1 * 64 + 1 * (x 1).val = (k 1).val; rw [e1, hk1]; omega

/-- What region 1 leaves in its output array: every row of the aggregate, scaled, biased and rectified, against every
    column of the weights, each row times its scale. -/
def G1 (a : S100000x128.Idx → EReal) (d : S100000x1.Idx → EReal) (b : S1x128.Idx → EReal) (w : S128x64.Idx → EReal) :
    S100000x64.Idx → EReal :=
  fun j => (∑ k : Fin 128, max (a (ix2 (⟨(j 0).val, idx2_lt0 j⟩ : Fin 100000) k) * d (ix2 (⟨(j 0).val, idx2_lt0 j⟩ : Fin 100000) (0 : Fin 1))
        + b (ix2 (0 : Fin 1) k)) 0 * w (ix2 k (⟨(j 1).val, idx2_lt1 j⟩ : Fin 64)))
    * d (ix2 (⟨(j 0).val, idx2_lt0 j⟩ : Fin 100000) (0 : Fin 1))

/-- What point `t` of region 1 writes back is block `t` of `G1` of the arrays the region finds. -/
theorem flushed1_eq (c : Dev nD) (t : Fin cfg1.N) :
    (dat1 (F := Ideal) V c).flushed 4 t
      = ((cfg1.win 4).blk t).view.read (Elt Ideal) (G1 (V c main_v31) (V c main_v20) (V c main_v32) (V c main_arg4)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  obtain ⟨-, -, -, -, -, -, -, -, e40, e41⟩ := idx_facts1 t
  funext j
  obtain ⟨p, g, rfl⟩ : ∃ (p : Fin 5000) (g : Fin 64), j = ix2 p g := ⟨j 0, j 1, eq_ix2 j⟩
  show k1_pay1 (iblk1 V c 0 t) (iblk1 V c 1 t) (iblk1 V c 2 t) (iblk1 V c 3 t) (iblk1 V c 1 t) (ix2 p g)
    = G1 (V c main_v31) (V c main_v20) (V c main_v32) (V c main_arg4) (((cfg1.win 4).blk t).view.emb (ix2 p g))
  refine (pay1_apply _ _ _ _ _ p g).trans ?_
  have h0 : ((((cfg1.win 4).blk t).view.emb (ix2 p g)) 0).val = 5000 * t.val + p.val := by
    show win1_4.index t 0 * 5000 + 1 * p.val = _; rw [e40]; omega
  have h1 : ((((cfg1.win 4).blk t).view.emb (ix2 p g)) 1).val = g.val := by
    show win1_4.index t 1 * 64 + 1 * g.val = _; rw [e41]; omega
  unfold G1
  refine congrArg₂ (· * ·) (Finset.sum_congr rfl fun k _ => congrArg₂ (· * ·)
    (congrArg₂ max (congrArg₂ (· + ·) (congrArg₂ (· * ·) ?_ ?_) ?_) rfl) ?_) ?_
  · exact iblk1_0_apply V c t (ix2 p k) _ h0 rfl
  · exact iblk1_1_apply V c t (ix2 p (0 : Fin 1)) _ h0 rfl
  · exact iblk1_2_apply V c t (ix2 (0 : Fin 1) k) _ rfl rfl
  · exact iblk1_3_apply V c t (ix2 k g) _ rfl h1
  · exact iblk1_1_apply V c t (ix2 p (0 : Fin 1)) _ h0 rfl

/-- An index of the output array lies in point `t`'s block iff each coordinate lies in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v33).slice (win1_4.rect t)).set ↔ _
  rw [View.set_slice_whole, Rect.mem_set_unit]
  exact Iff.rfl

/-- Row `r` of the output lies in the block of point `r / 5000`, which writes back. -/
theorem cover1 (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 20 := N_1
  have ht : (i 0).val / 5000 < cfg1.N := lt_of_lt_of_eq (by omega) hN.symm
  obtain ⟨-, -, -, -, -, -, -, -, e40, e41⟩ := idx_facts1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ 0 * 5000 ≤ (i 0).val ∧ (i 0).val < win1_4.index ⟨(i 0).val / 5000, ht⟩ 0 * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ 1 * 64 ≤ (i 1).val ∧ (i 1).val < win1_4.index ⟨(i 0).val / 5000, ht⟩ 1 * 64 + 64
    rw [e41]; omega

/-- Region 1's output array after its last point is `G1` of the arrays the region finds. -/
theorem region1_array (c : Dev nD) :
    (dat1 (F := Ideal) V c).arrAt 4 cfg1.N = G1 (V c main_v31) (V c main_v20) (V c main_v32) (V c main_arg4) :=
  (dat1 (F := Ideal) V c).arrAt_eq_of_cover 4 _ (fun t _ => flushed1_eq V c t) cover1

/-- `G1` at an entry `(i, g)`. -/
theorem G1_apply (a : S100000x128.Idx → EReal) (d : S100000x1.Idx → EReal) (b : S1x128.Idx → EReal) (w : S128x64.Idx → EReal)
    (i : Fin 100000) (g : Fin 64) :
    G1 a d b w (ix2 i g)
      = (∑ k : Fin 128, max (a (ix2 i k) * d (ix2 i (0 : Fin 1)) + b (ix2 (0 : Fin 1) k)) 0 * w (ix2 k g)) * d (ix2 i (0 : Fin 1)) := rfl

/-- REGION 1 at an entry: the aggregate's row, scaled, biased and rectified, against the weights' column, times the
    row's scale (operations of extended reals: the entries' types are the extended reals once the buffers' types are
    unfolded, so the operations are written with their type named). -/
theorem region1_value (c : Dev nD) (i : Fin 100000) (g : Fin 64) :
    (dat1 (F := Ideal) V c).arrAt 4 cfg1.N (ix2 i g)
      = HMul.hMul (α := EReal) (β := EReal)
          (∑ k : Fin 128, HMul.hMul (α := EReal) (β := EReal)
            (max (HAdd.hAdd (α := EReal) (β := EReal)
              (HMul.hMul (α := EReal) (β := EReal) (V c main_v31 (ix2 i k)) (V c main_v20 (ix2 i (0 : Fin 1))))
              (V c main_v32 (ix2 (0 : Fin 1) k))) (0 : EReal))
            (V c main_arg4 (ix2 k g)))
          (V c main_v20 (ix2 i (0 : Fin 1))) := by
  rw [region1_array]
  rfl

end Cert.KernelIdeal.RegionValue

end
-- ==== Proof.RegionValue2.lean ====
/-
  The value of the kernel's third region (the scale-and-bias region) as one function of the arrays it finds.
  The region runs over 20 points; point `t` takes rows `5000 t … 5000 t + 4999` of the aggregate `[100000, 64]` and of
  the scale column `[100000, 1]`, and the whole bias row `[1, 64]`, and writes rows `5000 t … 5000 t + 4999` of the
  output: each entry of the aggregate times its row's scale, plus its column's bias. The blocks of the 20 points tile
  the output, so the output array ends as that function of the three arrays, entry by entry.
-/
import proofs.«140880_j12189117186811_2_alg».proof.Proof.Gen.KernelIdeal.Frame
import proofs.«140880_j12189117186811_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.ValueLayout
open Idealize.ShloMosaic.TcCoe
open Idealize.ShloMosaic.Pipeline (Dat)

/-- The zero offsets of a whole-block access, however spelt. -/
private theorem zero_offsets : (![0, 0] : Fin 2 → Nat) = fun _ => 0 := funext fun a => by fin_cases a <;> rfl

/-- Region 2's payload at an entry of the block: the aggregate's entry times the row's scale, plus the bias of the column. -/
theorem pay2_apply (x0 : Vec Ideal S5000x64 .f32) (x1 : Vec Ideal S5000x1 .f32) (x2 : Vec Ideal S1x64 .f32)
    (p : Fin 5000) (q : Fin 64) :
    k2_pay1 x0 x1 x2 (ix2 p q) = x0 (ix2 p q) * x1 (ix2 p (0 : Fin 1)) + x2 (ix2 (0 : Fin 1) q) := by
  unfold k2_pay1
  simp only [shapeCast_self]
  rw [addf_apply, mulf_apply, broadcastTo_a1_ab_apply, broadcastTo_1b_ab_apply]

variable (V : (c : Dev nD) → (b : Ref sig .tc) → Buf (Elt Ideal) ((c : Thread nD τ).loc b))

/-- The printed index maps of region 2, decided over the grid: the row-blocked windows sit at block `(t, 0)`, the bias at `(0, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregate's block at point `t` holds rows `5000 t … 5000 t + 4999` of the array. -/
theorem iblk2_0_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v43 : S100000x64.Idx → EReal) k := by
  obtain ⟨e0, e1, -⟩ := idx_facts2 t
  unfold iblk2
  rw [View.read_apply]
  show (V c main_v43 : S100000x64.Idx → EReal) _ = V c main_v43 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The scale column's block at point `t` holds rows `5000 t … 5000 t + 4999` of the column. -/
theorem iblk2_1_apply (c : Dev nD) (t : Fin cfg2.N) (x : S5000x1.Idx) (k : S100000x1.Idx)
    (hk0 : (k 0).val = 5000 * t.val + (x 0).val) (hk1 : (k 1).val = (x 1).val) :
    (iblk2 V c 1 t : Vec Ideal S5000x1 .f32) x = (V c main_v20 : S100000x1.Idx → EReal) k := by
  obtain ⟨-, -, e0, e1, -⟩ := idx_facts2 t
  unfold iblk2
  rw [View.read_apply]
  show (V c main_v20 : S100000x1.Idx → EReal) _ = V c main_v20 _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The bias row's block at every point is the whole row. -/
theorem iblk2_2_apply (c : Dev nD) (t : Fin cfg2.N) (x : S1x64.Idx) (k : S1x64.Idx)
    (hk0 : (k 0).val = (x 0).val) (hk1 : (k 1).val = (x 1).val) :
    (iblk2 V c 2 t : Vec Ideal S1x64 .f32) x = (V c main_v44 : S1x64.Idx → EReal) k := by
  obtain ⟨-, -, -, -, e0, e1, -⟩ := idx_facts2 t
  unfold iblk2
  rw [View.read_apply]
  show (V c main_v44 : S1x64.Idx → EReal) _ = V c main_v44 _
  congr 1
  funext a
  apply Fin.ext
  match a with
  | ⟨0, _⟩ => show win2_2.index t 0 * 1 + 1 * (x 0).val = (k 0).val; rw [e0, hk0]; omega
  | ⟨1, _⟩ => show win2_2.index t 1 * 64 + 1 * (x 1).val = (k 1).val; rw [e1, hk1]; omega

/-- What region 2 leaves in its output array: every entry of the aggregate times its row's scale, plus its column's bias. -/
def G2 (a : S100000x64.Idx → EReal) (d : S100000x1.Idx → EReal) (b : S1x64.Idx → EReal) : S100000x64.Idx → EReal :=
  fun j => a j * d (ix2 (⟨(j 0).val, idx2_lt0 j⟩ : Fin 100000) (0 : Fin 1)) + b (ix2 (0 : Fin 1) (⟨(j 1).val, idx2_lt1 j⟩ : Fin 64))

/-- What point `t` of region 2 writes back is block `t` of `G2` of the arrays the region finds. -/
theorem flushed2_eq (c : Dev nD) (t : Fin cfg2.N) :
    (dat2 (F := Ideal) V c).flushed 3 t
      = ((cfg2.win 3).blk t).view.read (Elt Ideal) (G2 (V c main_v43) (V c main_v20) (V c main_v44)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S5000x1) zero_offsets, View.ld_unit_zero (S := S1x64) zero_offsets]
  obtain ⟨-, -, -, -, -, -, e30, e31⟩ := idx_facts2 t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (ix2 p q)
    = G2 (V c main_v43) (V c main_v20) (V c main_v44) (((cfg2.win 3).blk t).view.emb (ix2 p q))
  refine (pay2_apply _ _ _ p q).trans ?_
  have h0 : ((((cfg2.win 3).blk t).view.emb (ix2 p q)) 0).val = 5000 * t.val + p.val := by
    show win2_3.index t 0 * 5000 + 1 * p.val = _; rw [e30]; omega
  have h1 : ((((cfg2.win 3).blk t).view.emb (ix2 p q)) 1).val = q.val := by
    show win2_3.index t 1 * 64 + 1 * q.val = _; rw [e31]; omega
  unfold G2
  refine congrArg₂ (· + ·) (congrArg₂ (· * ·) ?_ ?_) ?_
  · exact iblk2_0_apply V c t (ix2 p q) (((cfg2.win 3).blk t).view.emb (ix2 p q)) h0 h1
  · exact iblk2_1_apply V c t (ix2 p (0 : Fin 1)) _ h0 rfl
  · exact iblk2_2_apply V c t (ix2 (0 : Fin 1) q) _ rfl h1

/-- An index of the output array lies in point `t`'s block iff each coordinate lies in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v45).slice (win2_3.rect t)).set ↔ _
  rw [View.set_slice_whole, Rect.mem_set_unit]
  exact Iff.rfl

/-- Row `r` of the output lies in the block of point `r / 5000`, which writes back. -/
theorem cover2 (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 20 := N_2
  have ht : (i 0).val / 5000 < cfg2.N := lt_of_lt_of_eq (by omega) hN.symm
  obtain ⟨-, -, -, -, -, -, e30, e31⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val ∧ (i 1).val < win2_3.index ⟨(i 0).val / 5000, ht⟩ 1 * 64 + 64
    rw [e31]; omega

/-- Region 2's output array after its last point is `G2` of the arrays the region finds. -/
theorem region2_array (c : Dev nD) :
    (dat2 (F := Ideal) V c).arrAt 3 cfg2.N = G2 (V c main_v43) (V c main_v20) (V c main_v44) :=
  (dat2 (F := Ideal) V c).arrAt_eq_of_cover 3 _ (fun t _ => flushed2_eq V c t) cover2

/-- `G2` at an entry `(i, g)`. -/
theorem G2_apply (a : S100000x64.Idx → EReal) (d : S100000x1.Idx → EReal) (b : S1x64.Idx → EReal) (i : Fin 100000) (g : Fin 64) :
    G2 a d b (ix2 i g) = a (ix2 i g) * d (ix2 i (0 : Fin 1)) + b (ix2 (0 : Fin 1) g) := rfl

/-- REGION 2 at an entry: the aggregate's entry times the row's scale, plus the column's bias (a product and a sum of
    extended reals: the entries' types are the extended reals once the buffers' types are unfolded, so the two
    operations are written with their type named). -/
theorem region2_value (c : Dev nD) (i : Fin 100000) (g : Fin 64) :
    (dat2 (F := Ideal) V c).arrAt 3 cfg2.N (ix2 i g)
      = HAdd.hAdd (α := EReal) (β := EReal)
          (HMul.hMul (α := EReal) (β := EReal) (V c main_v43 (ix2 i g)) (V c main_v20 (ix2 i (0 : Fin 1))))
          (V c main_v44 (ix2 (0 : Fin 1) g)) := by
  rw [region2_array]
  rfl

end Cert.KernelIdeal.RegionValue

end
-- ==== Proof.GcnAlgebra.lean ====
/-
  A two-layer graph convolution with symmetric normalisation, in the two orders the two programs compute it.

  The graph is given by: for each node `i` the set `hit i` of edges whose destination is `i`; for each edge `e` the node
  `s e` its source selects and the node `t e` its destination selects when a per-node value is gathered (so `t e = i`
  on `hit i`); a per-node scale `d` (the inverse square root of the degree). One propagation of node features `H` is
      out i k = sum over e in hit i of  H (s e) k * d (s e) * d i.
  One program scales the rows by `d` before gathering them and scales the sum by `d i` afterwards (`propPre`), the
  other multiplies each gathered row by the edge weight `d (s e) * d (t e)` (`propNorm`). On the extended reals the two
  agree when every number involved is a real: the factor `d i` moves into the finite sum.
-/
import Mathlib.Data.EReal.Basic
import Mathlib.Algebra.BigOperators.Ring.Finset

noncomputable section

namespace Cert.Gcn

open Finset

variable {N E A B C : ℕ}

/-- A finite sum of reals, read in the extended reals, is the real sum. -/
theorem coe_sum {ι : Type*} (S : Finset ι) (f : ι → ℝ) : (∑ e ∈ S, ((f e : ℝ) : EReal)) = ((∑ e ∈ S, f e : ℝ) : EReal) := by
  classical
  induction S using Finset.induction_on with
  | empty => simp
  | insert a S ha ih => rw [Finset.sum_insert ha, Finset.sum_insert ha, ih, EReal.coe_add]

section
variable (hit : Fin N → Finset (Fin E)) (s t : Fin E → Fin N) (d : Fin N → EReal)

/-- The dense product of node features with a weight matrix. -/
def mm (X : Fin N → Fin A → EReal) (W : Fin A → Fin B → EReal) (j : Fin N) (k : Fin B) : EReal := ∑ l, X j l * W l k

/-- One propagation with the rows scaled before the gather and the sum scaled after it. -/
def propPre (H : Fin N → Fin B → EReal) (i : Fin N) (k : Fin B) : EReal :=
  (0 + ∑ e ∈ hit i, H (s e) k * d (s e)) * d i

/-- One propagation with each gathered row multiplied by its edge's weight. -/
def propNorm (H : Fin N → Fin B → EReal) (i : Fin N) (k : Fin B) : EReal :=
  0 + ∑ e ∈ hit i, H (s e) k * (d (s e) * d (t e))

/-- Two layers, bias and rectifier between them, scaling around the gathers. -/
def outPre (x : Fin N → Fin A → EReal) (w1 : Fin A → Fin B → EReal) (b1 : Fin B → EReal) (w2 : Fin B → Fin C → EReal)
    (b2 : Fin C → EReal) (i : Fin N) (g : Fin C) : EReal :=
  propPre hit s d (mm (fun j k => max (propPre hit s d (mm x w1) j k + b1 k) 0) w2) i g + b2 g

/-- Two layers, bias and rectifier between them, edge weights on the gathered rows. -/
def outNorm (x : Fin N → Fin A → EReal) (w1 : Fin A → Fin B → EReal) (b1 : Fin B → EReal) (w2 : Fin B → Fin C → EReal)
    (b2 : Fin C → EReal) (i : Fin N) (g : Fin C) : EReal :=
  propNorm hit s t d (mm (fun j k => max (propNorm hit s t d (mm x w1) j k + b1 k) 0) w2) i g + b2 g

variable {hit s t d}

/-- A product of real matrices is real. -/
theorem mm_real {X : Fin N → Fin A → EReal} {W : Fin A → Fin B → EReal} (hX : ∀ j l, ∃ r : ℝ, X j l = r)
    (hW : ∀ l k, ∃ r : ℝ, W l k = r) (j : Fin N) (k : Fin B) : ∃ r : ℝ, mm X W j k = r := by
  choose X' hX' using hX
  choose W' hW' using hW
  refine ⟨∑ l, X' j l * W' l k, ?_⟩
  unfold mm
  rw [← coe_sum]
  exact Finset.sum_congr rfl fun l _ => by rw [hX', hW', EReal.coe_mul]

/-- With real features and real scales the two orders of a propagation agree, and the result is real. -/
theorem propPre_eq_propNorm (ht : ∀ i, ∀ e ∈ hit i, t e = i) (hd : ∀ i, ∃ r : ℝ, d i = r)
    {H : Fin N → Fin B → EReal} (hH : ∀ j k, ∃ r : ℝ, H j k = r) (i : Fin N) (k : Fin B) :
    propPre hit s d H i k = propNorm hit s t d H i k ∧ ∃ r : ℝ, propNorm hit s t d H i k = r := by
  choose d' hd' using hd
  choose H' hH' using hH
  have hR : propNorm hit s t d H i k = ((∑ e ∈ hit i, H' (s e) k * (d' (s e) * d' i) : ℝ) : EReal) := by
    unfold propNorm
    rw [zero_add, ← coe_sum]
    refine Finset.sum_congr rfl fun e he => ?_
    rw [ht i e he, hH', hd', hd', ← EReal.coe_mul, ← EReal.coe_mul]
  refine ⟨?_, _, hR⟩
  rw [hR]
  unfold propPre
  rw [zero_add, hd' i]
  have : (∑ e ∈ hit i, H (s e) k * d (s e)) = ((∑ e ∈ hit i, H' (s e) k * d' (s e) : ℝ) : EReal) := by
    rw [← coe_sum]
    exact Finset.sum_congr rfl fun e _ => by rw [hH', hd', EReal.coe_mul]
  rw [this, ← EReal.coe_mul, Finset.sum_mul]
  refine congrArg _ (Finset.sum_congr rfl fun e _ => ?_)
  ring

/-- The rectified, biased layer of real numbers is real. -/
theorem relu_real {a b : EReal} (ha : ∃ r : ℝ, a = r) (hb : ∃ r : ℝ, b = r) : ∃ r : ℝ, max (a + b) 0 = r := by
  obtain ⟨a', rfl⟩ := ha
  obtain ⟨b', rfl⟩ := hb
  rcases max_choice ((a' : EReal) + b') 0 with h | h
  · exact ⟨a' + b', by rw [h, EReal.coe_add]⟩
  · exact ⟨0, by rw [h, EReal.coe_zero]⟩

/-- The two programs' orders of the whole network agree on real inputs (the last bias may be any extended real). -/
theorem outPre_eq_outNorm (ht : ∀ i, ∀ e ∈ hit i, t e = i) (hd : ∀ i, ∃ r : ℝ, d i = r)
    {x : Fin N → Fin A → EReal} {w1 : Fin A → Fin B → EReal} {b1 : Fin B → EReal} {w2 : Fin B → Fin C → EReal}
    (b2 : Fin C → EReal) (hx : ∀ j l, ∃ r : ℝ, x j l = r) (hw1 : ∀ l k, ∃ r : ℝ, w1 l k = r)
    (hb1 : ∀ k, ∃ r : ℝ, b1 k = r) (hw2 : ∀ k g, ∃ r : ℝ, w2 k g = r) (i : Fin N) (g : Fin C) :
    outPre hit s d x w1 b1 w2 b2 i g = outNorm hit s t d x w1 b1 w2 b2 i g := by
  have h1 := fun j k => propPre_eq_propNorm (s := s) ht hd (mm_real hx hw1) j k
  have hfun : (fun j k => max (propPre hit s d (mm x w1) j k + b1 k) 0)
      = fun j k => max (propNorm hit s t d (mm x w1) j k + b1 k) 0 := by
    funext j k; rw [(h1 j k).1]
  unfold outPre outNorm
  rw [hfun]
  refine congrArg (· + b2 g) ?_
  exact (propPre_eq_propNorm (s := s) ht hd
    (mm_real (fun j k => relu_real (h1 j k).2 (hb1 k)) hw2) i g).1

end

end Cert.Gcn

end
-- ==== Proof.KernelValue.lean ====
/-
  The idealized kernel program's result, read entry by entry, is the two-layer graph convolution with the rows scaled
  before each gather and the sums scaled after it.

  Boundary by boundary: the first region leaves (features × first weights) with row `j` scaled by node `j`'s scale;
  the host gathers its rows by the source words and sums them per destination; the second region scales each sum by its
  node's scale, adds the first bias, rectifies, multiplies by the second weights and scales the rows again; the host
  gathers and sums once more; the third region scales the sums and adds the second bias.
-/
import proofs.«140880_j12189117186811_2_alg».proof.Proof.KernelSums
import proofs.«140880_j12189117186811_2_alg».proof.Proof.RegionValue0
import proofs.«140880_j12189117186811_2_alg».proof.Proof.RegionValue1
import proofs.«140880_j12189117186811_2_alg».proof.Proof.RegionValue2
import proofs.«140880_j12189117186811_2_alg».proof.Proof.GcnAlgebra

noncomputable section

namespace Cert.KernelIdeal.KValue

open Cert.KernelIdeal Cert.KernelIdeal.Gen Cert.KernelIdeal.Stages Cert.KernelIdeal.Sums Cert.KernelIdeal.RegionValue
open Idealize.ShloMosaic Idealize.ShloMosaic.ValueIdx Idealize.ShloMosaic.TcCoe Idealize.ShloMosaic.StableHlo
open Idealize.SL Idealize.SL.Sem
open Cert.ReferenceIdeal.Read (val_main_v3 val_main_v6 val_main_v19 val_main_v24)
open Cert.Gcn

variable (m : (ℓ : Loc nD τ sig) → Buf (Elt Ideal) ℓ) (ρ : Dev nD → PrngReg) (c : Dev nD)

/-- The edge array as launched. -/
abbrev words : Data.EdgeWords := m ((c : Thread nD τ).loc main_arg1)
/-- The features, the two weight matrices and the two biases as launched. -/
abbrev feats : S100000x128.Idx → EReal := m ((c : Thread nD τ).loc main_arg0)
abbrev wts1 : S128x128.Idx → EReal := m ((c : Thread nD τ).loc main_arg2)
abbrev bias1 : S128.Idx → EReal := m ((c : Thread nD τ).loc main_arg3)
abbrev wts2 : S128x64.Idx → EReal := m ((c : Thread nD τ).loc main_arg4)
abbrev bias2 : S64.Idx → EReal := m ((c : Thread nD τ).loc main_arg5)

/-! ## The scale column at every region's entry -/

theorem scale3 : W3 (F := Ideal) m ρ c (Proc.devRef .tc main_v20) = scaleCol (words m c) := W3_v20 m ρ c

theorem scale5 : W5 (F := Ideal) m ρ c (Proc.devRef .tc main_v20) = scaleCol (words m c) := by
  show StableHlo.after hostOps1 (W4 m ρ c) _ = _
  rw [sum1_v20, W4_v20, scale3]

theorem scale7 : W7 (F := Ideal) m ρ c (Proc.devRef .tc main_v20) = scaleCol (words m c) := by
  show StableHlo.after hostOps2 (W6 m ρ c) _ = _
  rw [sum2_v20, W6_v20, scale5]

/-! ## The words between the regions -/

theorem src5 : W5 (F := Ideal) m ρ c (Proc.devRef .tc main_v3) = val_main_v3 (F := Ideal) (words m c) := by
  show StableHlo.after hostOps1 (W4 m ρ c) _ = _
  rw [sum1_v3, W4_v3, W3_v3]

theorem dst5 : W5 (F := Ideal) m ρ c (Proc.devRef .tc main_v6) = val_main_v6 (F := Ideal) (words m c) := by
  show StableHlo.after hostOps1 (W4 m ρ c) _ = _
  rw [sum1_v6, W4_v6, W3_v6]

/-! ## The first layer -/

/-- The first region's output: the product with its rows scaled. -/
theorem layer1_scaled :
    W4 (F := Ideal) m ρ c (Proc.devRef .tc main_v21) = G0 (feats m c) (wts1 m c) (scaleCol (words m c)) := by
  rw [W4_v21, region0_array (V3 m ρ) c]
  show G0 (W3 m ρ c (Proc.devRef .tc main_arg0)) (W3 m ρ c (Proc.devRef .tc main_arg2))
    (W3 m ρ c (Proc.devRef .tc main_v20)) = _
  rw [W3_arg0, W3_arg2, scale3]

/-- Its rows gathered and summed per destination. -/
theorem layer1_summed :
    W5 (F := Ideal) m ρ c (Proc.devRef .tc main_v31)
      = seg128 (words m c) (G0 (feats m c) (wts1 m c) (scaleCol (words m c))) := by
  show StableHlo.after hostOps1 (W4 m ρ c) _ = _
  rw [sum1_v31, W4_v6, W3_v6, W4_v3, W3_v3, layer1_scaled]
  rfl

theorem bias1_row : W5 (F := Ideal) m ρ c (Proc.devRef .tc main_v32)
    = shapeCast S1x128 (bias1 m c) shapeCasts_S128_S1x128 := by
  show StableHlo.after hostOps1 (W4 m ρ c) _ = _
  rw [sum1_v32, W4_arg3, W3_arg3]

theorem wts2_kept : W5 (F := Ideal) m ρ c (Proc.devRef .tc main_arg4) = wts2 m c := by
  show StableHlo.after hostOps1 (W4 m ρ c) _ = _
  rw [sum1_arg4, W4_arg4, W3_arg4]

theorem bias2_kept : W5 (F := Ideal) m ρ c (Proc.devRef .tc main_arg5) = bias2 m c := by
  show StableHlo.after hostOps1 (W4 m ρ c) _ = _
  rw [sum1_arg5, W4_arg5, W3_arg5]

/-! ## The second layer -/

/-- The second region's output. -/
theorem layer2_scaled :
    W6 (F := Ideal) m ρ c (Proc.devRef .tc main_v33)
      = G1 (seg128 (words m c) (G0 (feats m c) (wts1 m c) (scaleCol (words m c)))) (scaleCol (words m c))
          (shapeCast S1x128 (bias1 m c) shapeCasts_S128_S1x128) (wts2 m c) := by
  rw [W6_v33, region1_array (V5 m ρ) c]
  show G1 (W5 m ρ c (Proc.devRef .tc main_v31)) (W5 m ρ c (Proc.devRef .tc main_v20))
    (W5 m ρ c (Proc.devRef .tc main_v32)) (W5 m ρ c (Proc.devRef .tc main_arg4)) = _
  rw [layer1_summed, scale5, bias1_row, wts2_kept]

/-- Its rows gathered and summed per destination. -/
theorem layer2_summed :
    W7 (F := Ideal) m ρ c (Proc.devRef .tc main_v43)
      = seg64 (words m c) (G1 (seg128 (words m c) (G0 (feats m c) (wts1 m c) (scaleCol (words m c)))) (scaleCol (words m c))
          (shapeCast S1x128 (bias1 m c) shapeCasts_S128_S1x128) (wts2 m c)) := by
  show StableHlo.after hostOps2 (W6 m ρ c) _ = _
  rw [sum2_v43, W6_v6, dst5, W6_v3, src5, layer2_scaled]
  rfl

theorem bias2_row : W7 (F := Ideal) m ρ c (Proc.devRef .tc main_v44)
    = shapeCast S1x64 (bias2 m c) shapeCasts_S64_S1x64 := by
  show StableHlo.after hostOps2 (W6 m ρ c) _ = _
  rw [sum2_v44, W6_arg5, bias2_kept]

/-! ## The result -/

/-- The third region's output, the program's result, as one array. -/
theorem result_array :
    W8 (F := Ideal) m ρ c (Proc.devRef .tc main_v45)
      = G2 (seg64 (words m c) (G1 (seg128 (words m c) (G0 (feats m c) (wts1 m c) (scaleCol (words m c))))
          (scaleCol (words m c)) (shapeCast S1x128 (bias1 m c) shapeCasts_S128_S1x128) (wts2 m c)))
          (scaleCol (words m c)) (shapeCast S1x64 (bias2 m c) shapeCasts_S64_S1x64) := by
  rw [W8_v45, region2_array (V7 m ρ) c]
  show G2 (W7 m ρ c (Proc.devRef .tc main_v43)) (W7 m ρ c (Proc.devRef .tc main_v20))
    (W7 m ρ c (Proc.devRef .tc main_v44)) = _
  rw [layer2_summed, scale7, bias2_row]

/-- The result at node `i`, column `g`: the network in the scale-around-the-gather order. -/
theorem kernel_value (i : Fin 100000) (g : Fin 64) :
    (W8 (F := Ideal) m ρ c (Proc.devRef .tc main_v45) : S100000x64.Idx → EReal) (ix2 i g)
      = outPre (Data.hit (words m c)) (Data.srcRow (words m c)) (Data.scale (words m c))
          (fun j l => feats m c (ix2 j l)) (fun l k => wts1 m c (ix2 l k)) (fun k => bias1 m c (ix1 k))
          (fun k g => wts2 m c (ix2 k g)) (fun g => bias2 m c (ix1 g)) i g := by
  rw [result_array, G2_apply, seg64_apply, scaleCol_at, row64_at]
  simp only [G1_apply, scaleCol_at, seg128_apply, row128_at, G0_apply]
  rfl

end Cert.KernelIdeal.KValue

end
-- ==== Proof.LibVectorGather.lean ====
/-
  The gather of a vector's entries, read by coordinates.

  `x[rows]` on a vector `x : [N]`, with the row numbers given as a column `[E, 1]` of signed words: entry `e` of the
  result is `x` at the word of row `e`, read signed and clamped into `[0, N - 1]`.
-/
import proofs.«140880_j12189117186811_2_alg».proof.Proof.LibRowScatterGather

namespace Idealize.ShloMosaic.ValueIdx

open Idealize.ShloMosaic

variable {N E w : ℕ}

/-- The dimension numbers of `x[rows]` for `x : [N]`, `rows : [E, 1]`, result `[E]`. -/
abbrev takeVec (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[rows]` on a vector at `e` is `x` at row `e`'s word, read signed and clamped into `[0, N - 1]`: the one operand
    axis is collapsed, so the entry read is the clamped start index alone. -/
theorem takeVec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeVec N E wf) x idx (ix1 e) = x (ix1 (clampRow N hN (idx (ix2 e 0)))) := by
  unfold Host.gather
  congr 1
  funext a
  refine Fin.ext ?_
  match a with
  | ⟨0, _⟩ =>
    show (takeVec N E wf).start (ix1 e) idx 0 + (takeVec N E wf).batchCoord (ix1 e) 0 + (takeVec N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (takeVec N E wf).startIndexMap from List.mem_singleton.mpr rfl)]
    have hsi : (takeVec N E wf).siIdx (ix1 e) ⟨List.idxOf (0 : Fin 1) (takeVec N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Idealize.ShloMosaic.ValueIdx
-- ==== Proof.GraphFacts.lean ====
/-
  Two facts about the graph as the reference reads it off the edge array.

  An edge counted at node `i` has a destination word that reads, signed, as `i`: a number in `[0, 100000)`, so the
  wrap of negative words leaves it alone and the clamp into `[0, 99999]` returns `i` itself. And every node's scale is
  a real number: the degree is a finite sum of ones added onto zero, hence a real; where it is positive its inverse
  square root is a real, and elsewhere the scale is zero.
-/
import proofs.«140880_j12189117186811_2_alg».proof.Proof.RefRead
import proofs.«140880_j12189117186811_2_alg».proof.Proof.GraphData
import proofs.«140880_j12189117186811_2_alg».proof.Proof.GcnAlgebra
import proofs.«140880_j12189117186811_2_alg».proof.Proof.LibRowScatterGather

noncomputable section

namespace Cert.Gcn.Ref

open Idealize.ShloMosaic Idealize.ShloMosaic.ValueIdx Cert.ReferenceIdeal Cert.ReferenceIdeal.Read Cert.Gcn

/-! ### The wrapped destination word of an arriving edge -/

/-- an edge that arrives at node i selects row i when its destination word is wrapped and clamped -/
theorem dstRow_of_hit (x1 : Data.EdgeWords) (i : Fin 100000) (e : Fin 1700000) (he : e ∈ Data.hit x1 i) :
    Data.dstRow x1 e = i := by
  have hv : (val_main_v6 (F := Ideal) x1 (ix1 e)).toInt = (i.val : ℤ) := (Finset.mem_filter.mp he).2
  have hnlt : ¬ IntOp.cmpi .slt (val_main_v6 (F := Ideal) x1 (ix1 e)) (0#32) = 1 := fun h => by
    have h' := IntOp.cmpi_slt.mp h
    rw [hv, BitVec.toInt_zero] at h'
    omega
  unfold Data.dstRow
  rw [val_main_v31_apply, val_main_v28_apply, val_main_v27_apply, val_main_c_6_apply]
  unfold Scalar.select
  rw [if_neg hnlt]
  refine Fin.ext ?_
  show min (val_main_v6 (F := Ideal) x1 (ix1 e)).toInt.toNat (100000 - 1) = i.val
  rw [hv]
  have := i.isLt
  omega

/-! ### The scale is a real number -/

/-- The word `0x3F800000` denotes the real number one. -/
theorem ofBits_one_f32 : Ideal.ofBits .f32 0x3F800000#32 = 1 := IdealRules.sign_bit.ideal_onePat .f32

/-- The degree the reference counts at a node — ones added onto zero over the edges whose wrapped destination word
    reads as that node — is a real number. -/
theorem degree_real (x1 : Data.EdgeWords) (i : Fin 100000) :
    ∃ r : ℝ, val_main_v15 (F := Ideal) x1 (ix1 i) = r := by
  unfold val_main_v15
  refine ⟨∑ _e ∈ Finset.univ.filter (fun e : Fin 1700000 =>
      (val_main_v13 (F := Ideal) x1 (ix2 e 0)).toInt = (i.val : ℤ)), (1 : ℝ), ?_⟩
  refine (host_scatterRows1_apply (N := 100000) (E := 1700000) scatter_S100000_S1700000x1_S1700000_n_0_0_1
    scatter_S100000_S1700000x1_S1700000_n_0_0_1.wf rfl _ _ _ i).trans ?_
  rw [val_main_v7_apply, val_main_cst_apply, Ideal.ofBits_def, Ideal.ofBits_zero_f32, zero_add, ← coe_sum]
  refine Finset.sum_congr rfl fun e _ => ?_
  rw [val_main_v14_apply, val_main_cst_1_apply, Ideal.ofBits_def, ofBits_one_f32, EReal.coe_one]

/-- Selecting the inverse square root of a real where it is positive, and zero elsewhere, gives a real. -/
theorem select_rsqrt_real (d : ℝ) :
    ∃ r : ℝ, Scalar.select (Ideal.cmp .ogt (d : EReal) 0) (Ideal.rsqrt (d : EReal)) (0 : EReal) = r := by
  by_cases h : (0 : EReal) < (d : EReal)
  · have hd : 0 < d := EReal.coe_pos.mp h
    have hc : Ideal.cmp .ogt (d : EReal) 0 = 1#1 := by simp [Ideal.cmp, h]
    refine ⟨(Real.sqrt d)⁻¹, ?_⟩
    rw [hc, select_one, Ideal.rsqrt_coe, if_neg (not_lt.mpr hd.le), if_neg hd.ne']
  · have hc : Ideal.cmp .ogt (d : EReal) 0 = 0#1 := by simp [Ideal.cmp, h]
    exact ⟨0, by rw [hc, select_zero, EReal.coe_zero]⟩

/-- every node's scale is a real number -/
theorem scale_real (x1 : Data.EdgeWords) (i : Fin 100000) : ∃ r : ℝ, Data.scale x1 i = r := by
  obtain ⟨d, hd⟩ := degree_real x1 i
  unfold Data.scale
  rw [val_main_v19_apply, val_main_v17_apply, val_main_v18_apply, val_main_v16_apply, val_main_cst_2_apply,
    val_main_call0_v1_apply, val_main_call0_v0_apply, val_main_cst_3_apply, hd, Ideal.cmpf_def,
    Ideal.hostUnary_rsqrt_def, Ideal.ofBits_def, Ideal.ofBits_zero_f32]
  exact select_rsqrt_real d

end Cert.Gcn.Ref

end
-- ==== Proof.ReferenceValue.lean ====
/-
  The reference program's result, read index by index, is the two-layer graph convolution in the edge-weight order.

  Stage by stage, innermost first: the dense product of the features with the first weights; its rows gathered by the
  wrapped, clamped source words; each gathered row multiplied by its edge's weight, the product of the scales its two
  wrapped words select; the segment sum over the edges arriving at each node (a scatter-add onto zeros by the raw
  destination words); bias and rectifier; then the same once more with the second weights, and the last bias.
-/
import proofs.«140880_j12189117186811_2_alg».proof.Proof.RefRead
import proofs.«140880_j12189117186811_2_alg».proof.Proof.GraphData
import proofs.«140880_j12189117186811_2_alg».proof.Proof.GcnAlgebra
import proofs.«140880_j12189117186811_2_alg».proof.Proof.LibRowScatterGather
import proofs.«140880_j12189117186811_2_alg».proof.Proof.LibVectorGather
import proofs.«140880_j12189117186811_2_alg».proof.Proof.GraphFacts

noncomputable section

namespace Cert.Gcn.Ref

open Idealize.ShloMosaic Idealize.ShloMosaic.ValueIdx Cert.ReferenceIdeal Cert.ReferenceIdeal.Read Cert.Gcn

variable (x0 : (⟨S100000x128, .f32⟩ : BufTy).Contents (Elt Ideal)) (x1 : Data.EdgeWords)
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ### The three copies of the wrapped source words are one array -/

theorem v40_eq_v24 : val_main_v40 (F := Ideal) x1 = val_main_v24 (F := Ideal) x1 := rfl
theorem v58_eq_v24 : val_main_v58 (F := Ideal) x1 = val_main_v24 (F := Ideal) x1 := rfl

/-! ### The edge weight: the product of the scales the two wrapped words select -/

/-- The scale gathered by the wrapped source words. -/
theorem v26_at (e : Fin 1700000) :
    val_main_v26 (F := Ideal) x1 (ix1 e) = Data.scale x1 (Data.srcRow x1 e) := by
  unfold val_main_v26
  refine (takeVec_apply (N := 100000) (E := 1700000) (by norm_num)
    gather_S100000_S1700000x1_S1700000_n_0_n_n_0_1_1.wf _ _ e).trans ?_
  rw [val_main_v25_apply,
    show idx_main_v25 (ix2 e (0 : Fin 1)) = ix1 e from funext fun a => Fin.ext (by match a with | ⟨0, _⟩ => rfl)]
  rfl

/-- The scale gathered by the wrapped destination words. -/
theorem v33_at (e : Fin 1700000) :
    val_main_v33 (F := Ideal) x1 (ix1 e) = Data.scale x1 (Data.dstRow x1 e) := by
  unfold val_main_v33
  refine (takeVec_apply (N := 100000) (E := 1700000) (by norm_num)
    gather_S100000_S1700000x1_S1700000_n_0_n_n_0_1_1.wf _ _ e).trans ?_
  rw [val_main_v32_apply,
    show idx_main_v32 (ix2 e (0 : Fin 1)) = ix1 e from funext fun a => Fin.ext (by match a with | ⟨0, _⟩ => rfl)]
  rfl

/-- The edge weight. -/
theorem v34_at (e : Fin 1700000) :
    val_main_v34 (F := Ideal) x1 (ix1 e)
      = Data.scale x1 (Data.srcRow x1 e) * Data.scale x1 (Data.dstRow x1 e) := by
  rw [val_main_v34_apply, v26_at, v33_at, Ideal.mulf_def]

/-! ### The first layer -/

/-- The features times the first weights. -/
theorem v35_at (j : Fin 100000) (k : Fin 128) :
    val_main_v35 (F := Ideal) x0 x2 (ix2 j k) = mm (fun j l => x0 (ix2 j l)) (fun l k => x2 (ix2 l k)) j k := by
  refine (val_main_v35_apply x0 x2 (ix2 j k)).trans (Finset.sum_congr rfl fun l _ => ?_)
  rw [show lidx_main_v35 (ix2 j k) l = ix2 j l from
      funext fun a => Fin.ext (by match a with | ⟨0, _⟩ => rfl | ⟨1, _⟩ => rfl),
    show ridx_main_v35 (ix2 j k) l = ix2 l k from
      funext fun a => Fin.ext (by match a with | ⟨0, _⟩ => rfl | ⟨1, _⟩ => rfl)]

/-- Its rows gathered by the wrapped source words. -/
theorem v42_at (e : Fin 1700000) (k : Fin 128) :
    val_main_v42 (F := Ideal) x0 x1 x2 (ix2 e k)
      = val_main_v35 (F := Ideal) x0 x2 (ix2 (Data.srcRow x1 e) k) := by
  unfold val_main_v42
  refine (takeRows_apply (N := 100000) (C := 128) (E := 1700000) (by norm_num)
    gather_S100000x128_S1700000x1_S1700000x128_1_0_n_n_0_1_1128.wf _ _ e k).trans ?_
  rw [val_main_v41_apply,
    show idx_main_v41 (ix2 e (0 : Fin 1)) = ix1 e from funext fun a => Fin.ext (by match a with | ⟨0, _⟩ => rfl),
    v40_eq_v24]
  rfl

/-- The edge weight spread along a gathered row of the first layer. -/
theorem v44_at (e : Fin 1700000) (k : Fin 128) :
    val_main_v44 (F := Ideal) x1 (ix2 e k) = val_main_v34 (F := Ideal) x1 (ix1 e) := by
  rw [val_main_v44_apply, val_main_v43_apply,
    show idx_main_v43 (idx_main_v44 (ix2 e k)) = ix1 e from
      funext fun a => Fin.ext (by match a with | ⟨0, _⟩ => rfl)]

/-- The raw destination words as the column the first segment sum reads. -/
theorem v47_at (e : Fin 1700000) :
    val_main_v47 (F := Ideal) x1 (ix2 e (0 : Fin 1)) = val_main_v6 (F := Ideal) x1 (ix1 e) := by
  rw [val_main_v47_apply,
    show idx_main_v47 (ix2 e (0 : Fin 1)) = ix1 e from funext fun a => Fin.ext (by match a with | ⟨0, _⟩ => rfl)]

/-- The first segment sum: one propagation of the product, in the edge-weight order. -/
theorem v48_at (j : Fin 100000) (k : Fin 128) :
    val_main_v48 (F := Ideal) x0 x1 x2 (ix2 j k)
      = propNorm (Data.hit x1) (Data.srcRow x1) (Data.dstRow x1) (Data.scale x1)
          (mm (fun j l => x0 (ix2 j l)) (fun l k => x2 (ix2 l k))) j k := by
  unfold val_main_v48
  refine (host_scatterRows2_apply (N := 100000) (C := 128) (E := 1700000)
    scatter_S100000x128_S1700000x1_S1700000x128_1_0_0_1
    scatter_S100000x128_S1700000x1_S1700000x128_1_0_0_1.wf rfl _ _ _ j k).trans ?_
  have hf : (Finset.univ.filter fun e : Fin 1700000 =>
      (val_main_v47 (F := Ideal) x1 (ix2 e 0)).toInt = (j.val : ℤ)) = Data.hit x1 j := by
    unfold Data.hit
    refine Finset.filter_congr fun e _ => ?_
    rw [v47_at]
  rw [hf, val_main_v46_apply, val_main_cst_10_apply, Ideal.ofBits_def, Ideal.ofBits_zero_f32]
  refine congrArg (0 + ·) (Finset.sum_congr rfl fun e _ => ?_)
  rw [val_main_v45_apply, v42_at, v44_at, v34_at, v35_at, Ideal.mulf_def]

/-- Bias and rectifier. -/
theorem v52_at (j : Fin 100000) (k : Fin 128) :
    val_main_v52 (F := Ideal) x0 x1 x2 x3 (ix2 j k)
      = max (propNorm (Data.hit x1) (Data.srcRow x1) (Data.dstRow x1) (Data.scale x1)
          (mm (fun j l => x0 (ix2 j l)) (fun l k => x2 (ix2 l k))) j k + x3 (ix1 k)) 0 := by
  rw [val_main_v52_apply, val_main_v51_apply, v48_at, val_main_v50_apply, val_main_v49_apply,
    show idx_main_v49 (idx_main_v50 (ix2 j k)) = ix1 k from
      funext fun a => Fin.ext (by match a with | ⟨0, _⟩ => rfl),
    val_main_call1_v0_apply, val_main_call1_cst_apply, Ideal.ofBits_def, Ideal.ofBits_zero_f32,
    Ideal.maximumf_def, Ideal.addf_def]

/-! ### The second layer -/

/-- The rectified first layer times the second weights. -/
theorem v53_at (j : Fin 100000) (g : Fin 64) :
    val_main_v53 (F := Ideal) x0 x1 x2 x3 x4 (ix2 j g)
      = mm (fun j k => max (propNorm (Data.hit x1) (Data.srcRow x1) (Data.dstRow x1) (Data.scale x1)
          (mm (fun j l => x0 (ix2 j l)) (fun l k => x2 (ix2 l k))) j k + x3 (ix1 k)) 0)
          (fun k g => x4 (ix2 k g)) j g := by
  refine (val_main_v53_apply x0 x1 x2 x3 x4 (ix2 j g)).trans (Finset.sum_congr rfl fun k _ => ?_)
  rw [show lidx_main_v53 (ix2 j g) k = ix2 j k from
      funext fun a => Fin.ext (by match a with | ⟨0, _⟩ => rfl | ⟨1, _⟩ => rfl),
    show ridx_main_v53 (ix2 j g) k = ix2 k g from
      funext fun a => Fin.ext (by match a with | ⟨0, _⟩ => rfl | ⟨1, _⟩ => rfl),
    v52_at]

/-- Its rows gathered by the wrapped source words. -/
theorem v60_at (e : Fin 1700000) (g : Fin 64) :
    val_main_v60 (F := Ideal) x0 x1 x2 x3 x4 (ix2 e g)
      = val_main_v53 (F := Ideal) x0 x1 x2 x3 x4 (ix2 (Data.srcRow x1 e) g) := by
  unfold val_main_v60
  refine (takeRows_apply (N := 100000) (C := 64) (E := 1700000) (by norm_num)
    gather_S100000x64_S1700000x1_S1700000x64_1_0_n_n_0_1_164.wf _ _ e g).trans ?_
  rw [val_main_v59_apply,
    show idx_main_v59 (ix2 e (0 : Fin 1)) = ix1 e from funext fun a => Fin.ext (by match a with | ⟨0, _⟩ => rfl),
    v58_eq_v24]
  rfl

/-- The edge weight spread along a gathered row of the second layer. -/
theorem v62_at (e : Fin 1700000) (g : Fin 64) :
    val_main_v62 (F := Ideal) x1 (ix2 e g) = val_main_v34 (F := Ideal) x1 (ix1 e) := by
  rw [val_main_v62_apply, val_main_v61_apply,
    show idx_main_v61 (idx_main_v62 (ix2 e g)) = ix1 e from
      funext fun a => Fin.ext (by match a with | ⟨0, _⟩ => rfl)]

/-- The raw destination words as the column the second segment sum reads. -/
theorem v65_at (e : Fin 1700000) :
    val_main_v65 (F := Ideal) x1 (ix2 e (0 : Fin 1)) = val_main_v6 (F := Ideal) x1 (ix1 e) := by
  rw [val_main_v65_apply,
    show idx_main_v65 (ix2 e (0 : Fin 1)) = ix1 e from funext fun a => Fin.ext (by match a with | ⟨0, _⟩ => rfl)]

/-- The second segment sum: one propagation of the second product, in the edge-weight order. -/
theorem v66_at (i : Fin 100000) (g : Fin 64) :
    val_main_v66 (F := Ideal) x0 x1 x2 x3 x4 (ix2 i g)
      = propNorm (Data.hit x1) (Data.srcRow x1) (Data.dstRow x1) (Data.scale x1)
          (mm (fun j k => max (propNorm (Data.hit x1) (Data.srcRow x1) (Data.dstRow x1) (Data.scale x1)
            (mm (fun j l => x0 (ix2 j l)) (fun l k => x2 (ix2 l k))) j k + x3 (ix1 k)) 0)
            (fun k g => x4 (ix2 k g))) i g := by
  unfold val_main_v66
  refine (host_scatterRows2_apply (N := 100000) (C := 64) (E := 1700000)
    scatter_S100000x64_S1700000x1_S1700000x64_1_0_0_1
    scatter_S100000x64_S1700000x1_S1700000x64_1_0_0_1.wf rfl _ _ _ i g).trans ?_
  have hf : (Finset.univ.filter fun e : Fin 1700000 =>
      (val_main_v65 (F := Ideal) x1 (ix2 e 0)).toInt = (i.val : ℤ)) = Data.hit x1 i := by
    unfold Data.hit
    refine Finset.filter_congr fun e _ => ?_
    rw [v65_at]
  rw [hf, val_main_v64_apply, val_main_cst_13_apply, Ideal.ofBits_def, Ideal.ofBits_zero_f32]
  refine congrArg (0 + ·) (Finset.sum_congr rfl fun e _ => ?_)
  rw [val_main_v63_apply, v60_at, v62_at, v34_at, v53_at, Ideal.mulf_def]

/-! ### The result -/

/-- the reference's result at (i, g) is the two-layer network in the edge-weight order -/
theorem reference_value (x0 : (⟨S100000x128, .f32⟩ : BufTy).Contents (Elt Ideal)) (x1 : Data.EdgeWords)
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 100000) (g : Fin 64) :
    val_main_v69 (F := Ideal) x0 x1 x2 x3 x4 x5 (ix2 i g)
      = Cert.Gcn.outNorm (Data.hit x1) (Data.srcRow x1) (Data.dstRow x1) (Data.scale x1)
          (fun j l => x0 (ix2 j l)) (fun l k => x2 (ix2 l k)) (fun k => x3 (ix1 k)) (fun k g => x4 (ix2 k g))
          (fun g => x5 (ix1 g)) i g := by
  rw [val_main_v69_apply, v66_at, val_main_v68_apply, val_main_v67_apply,
    show idx_main_v67 (idx_main_v68 (ix2 i g)) = ix1 g from
      funext fun a => Fin.ext (by match a with | ⟨0, _⟩ => rfl),
    Ideal.addf_def]
  rfl

end Cert.Gcn.Ref

end
-- ==== Proof.Finite.lean ====
/-
  What the precondition gives: every entry of the five float arguments is a real number.

  The precondition is the conjunction, over the float arguments, of "every entry's absolute value is below plus
  infinity". On the extended reals that excludes exactly the two infinities, so each entry is the image of a real.
-/
import proofs.«140880_j12189117186811_2_alg».proof.Pre_finite_inputs
import Idealize.ShloMosaic.Lib.ReduceAll
import Idealize.ShloMosaic.Lib.ValueIdx
import Idealize.ShloMosaic.PureOps.Ideal.Laws

noncomputable section

namespace Cert.Gcn.Finite

open Idealize.ShloMosaic Idealize.ShloMosaic.ValueIdx Cert.Pre_finite_inputs

instance : Subsingleton S_.Idx := ⟨fun a b => funext fun d => d.elim0⟩

/-- An extended real whose absolute value is strictly below plus infinity is a real. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition, "all entries of `a` have absolute value below plus infinity", read at an entry. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : ∃ r : ℝ, a i = r := by
  have h := Host.reduce_andi_all _ _ hr hu ix0 e i
  exact real_of_abs_lt_top (a i) h

variable [Facts]

/-- Under the precondition every entry of the features, of both weight matrices and of both biases is a real. -/
theorem reals_of_pre (a0 : FVec Ideal S100000x128 .f32) (a1 : IVec S2x1600000 32) (a2 : FVec Ideal S128x128 .f32)
    (a3 : FVec Ideal S128 .f32) (a4 : FVec Ideal S128x64 .f32) (a5 : FVec Ideal S64 .f32)
    (h : fn (F := Ideal) a0 a1 a2 a3 a4 a5 = fun _ => 1#1) :
    (∀ i, ∃ r : ℝ, a0 i = r) ∧ (∀ i, ∃ r : ℝ, a2 i = r) ∧ (∀ i, ∃ r : ℝ, a3 i = r) ∧ (∀ i, ∃ r : ℝ, a4 i = r)
      ∧ (∀ i, ∃ r : ℝ, a5 i = r) := by
  have h0 := congrFun h ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨real_of_all a0 _ _ _ e0, real_of_all a2 _ _ _ e2, real_of_all a3 _ _ _ e3, real_of_all a4 _ _ _ e4,
    real_of_all a5 _ _ _ e5⟩

end Cert.Gcn.Finite

end
-- ==== Proof.Bridge.lean ====
/-
  The two idealized programs end with the same result. Entry by entry the kernel's result is the network with the node
  scale applied before each gather and after each segment sum, the reference's the network with the edge weight (the
  product of the two scales) applied to each gathered row. Under the precondition every feature, weight and first-layer
  bias is a real number, and every node's scale is a real number by construction, so the scale of the destination
  node moves into the finite sum over the arriving edges and the two orders agree.
-/
import proofs.«140880_j12189117186811_2_alg».proof.Defs
import proofs.«140880_j12189117186811_2_alg».proof.Proof.Gen.Pre_finite_inputs
import proofs.«140880_j12189117186811_2_alg».proof.Proof.KernelValue
import proofs.«140880_j12189117186811_2_alg».proof.Proof.ReferenceValue
import proofs.«140880_j12189117186811_2_alg».proof.Proof.Finite

noncomputable section

namespace Cert.Gcn.Bridge

open Idealize.ShloMosaic Idealize.ShloMosaic.ValueIdx Idealize.ShloMosaic.TcCoe Idealize.SL.Sem
open Cert.KernelIdeal Cert.KernelIdeal.Gen Cert.KernelIdeal.KValue

variable [hP : Cert.Pre_finite_inputs.Facts]

/-- Under the precondition, the reference's result stage on the kernel's argument arrays is the kernel's result array. -/
theorem results_agree (m : (ℓ : Loc nD τ sig) → Buf (Elt Ideal) ℓ) (ρ : Dev nD → PrngReg) (hpre : Cert.Pre_KernelIdeal m)
    (c : Dev nD) :
    Cert.ReferenceIdeal.Read.val_main_v69 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5))
      = W8 (F := Ideal) m ρ c (Proc.devRef .tc main_v45) := by
  obtain ⟨h0, h2, h3, h4, -⟩ := Cert.Gcn.Finite.reals_of_pre _ _ _ _ _ _ (hpre c)
  funext idx
  obtain ⟨i, g, rfl⟩ : ∃ (i : Fin 100000) (g : Fin 64), idx = ix2 i g := ⟨idx 0, idx 1, eq_ix2 idx⟩
  rw [Cert.Gcn.Ref.reference_value]
  refine Eq.trans ?_ (kernel_value m ρ c i g).symm
  exact (Cert.Gcn.outPre_eq_outNorm (fun i e he => Cert.Gcn.Ref.dstRow_of_hit _ i e he) (Cert.Gcn.Ref.scale_real _) _
    (fun j l => h0 (ix2 j l)) (fun l k => h2 (ix2 l k)) (fun k => h3 (ix1 k)) (fun k g => h4 (ix2 k g)) i g).symm

end Cert.Gcn.Bridge

end
-- ==== Proof.lean ====
/-
  The certificate: a two-layer graph convolution computed by three tiled kernels (the dense products, with the
  symmetric normalisation split into a scale of the rows before each gather and a scale of the sums after it) against
  the plain formulation that multiplies every gathered row by its edge's weight.

  The three frames are the generated frame certificates (the reference's is its run with the result dropped). The
  idealization rewrote nothing, so the preservation claim is trivial. For the value claim both programs run; the
  kernel's result is the last region's output array, read boundary by boundary (Proof/KernelValue.lean), the
  reference's is its composed term read operation by operation (Proof/ReferenceValue.lean), and on real inputs the two
  are one function of the arguments (Proof/GcnAlgebra.lean, Proof/Bridge.lean).
-/
import proofs.«140880_j12189117186811_2_alg».proof.Defs
import proofs.«140880_j12189117186811_2_alg».proof.Proof.Gen.Kernel
import proofs.«140880_j12189117186811_2_alg».proof.Proof.Gen.Kernel.Skeleton
import proofs.«140880_j12189117186811_2_alg».proof.Proof.Gen.Kernel.Launch
import proofs.«140880_j12189117186811_2_alg».proof.Proof.Gen.Kernel.Points
import proofs.«140880_j12189117186811_2_alg».proof.Proof.Gen.Kernel.Frame
import proofs.«140880_j12189117186811_2_alg».proof.Proof.Gen.KernelIdeal
import proofs.«140880_j12189117186811_2_alg».proof.Proof.Gen.KernelIdeal.Skeleton
import proofs.«140880_j12189117186811_2_alg».proof.Proof.Gen.KernelIdeal.Launch
import proofs.«140880_j12189117186811_2_alg».proof.Proof.Gen.KernelIdeal.Points
import proofs.«140880_j12189117186811_2_alg».proof.Proof.Gen.KernelIdeal.Frame
import proofs.«140880_j12189117186811_2_alg».proof.Proof.Gen.ReferenceIdeal
import proofs.«140880_j12189117186811_2_alg».proof.Proof.Gen.Pre_finite_inputs
import proofs.«140880_j12189117186811_2_alg».proof.Proof.RefRun
import proofs.«140880_j12189117186811_2_alg».proof.Proof.RefRead
import proofs.«140880_j12189117186811_2_alg».proof.Proof.KernelRun
import proofs.«140880_j12189117186811_2_alg».proof.Proof.Bridge
import Idealize.ShloMosaic.Adequacy
import Idealize.ShloMosaic.Init

noncomputable section

namespace Cert.Proof

open Idealize.ShloMosaic Idealize.SL.Sem

/-- Both idealized programs run from memories agreeing on the arguments and end with equal results: the kernel's run
    names its result array, the reference's run its composed term, and under the precondition the two are equal. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W8 (F := Ideal) m ρ c (Proc.devRef .tc Cert.KernelIdeal.main_v45),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2.1, (hagree c).2.2.2.1,
    (hagree c).2.2.2.2.1, (hagree c).2.2.2.2.2]
  exact Cert.Gcn.Bridge.results_agree m ρ hpre c

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
